-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S3x128 .f32) (main_arg6 : FVec F S128x64 .f32) (main_arg7 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S3x128x128 .f32) (main_arg5 : FVec F S3x128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S1x128 : Shape := ⟨2, ![1, 128]⟩
abbrev S1x128x128 : Shape := ⟨3, ![1, 128, 128]⟩
abbrev S850000x128 : Shape := ⟨2, ![850000, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 125
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S_, .f32⟩
  | .hbm, ⟨55, _⟩ => ⟨S128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S128, .f32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S_, .f32⟩
  | .hbm, ⟨79, _⟩ => ⟨S128, .f32⟩
  | .hbm, ⟨80, _⟩ => ⟨S50000x128, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x128, .f32⟩
  | .hbm, ⟨90, _⟩ => ⟨S850000x1, .f32⟩
  | .hbm, ⟨91, _⟩ => ⟨S850000x128, .f32⟩
  | .hbm, ⟨92, _⟩ => ⟨S850000x128, .f32⟩
  | .hbm, ⟨93, _⟩ => ⟨S_, .f32⟩
  | .hbm, ⟨94, _⟩ => ⟨S50000x128, .f32⟩
  | .hbm, ⟨95, _⟩ => ⟨S850000x1, .i32⟩
  | .hbm, ⟨96, _⟩ => ⟨S50000x128, .f32⟩
  | .hbm, ⟨97, _⟩ => ⟨S1x128, .f32⟩
  | .hbm, ⟨98, _⟩ => ⟨S128, .f32⟩
  | .hbm, ⟨99, _⟩ => ⟨S50000x128, .f32⟩
  | .hbm, ⟨100, _⟩ => ⟨S1x128x128, .f32⟩
  | .hbm, ⟨101, _⟩ => ⟨S128x128, .f32⟩
  | .hbm, ⟨102, _⟩ => ⟨S_, .f32⟩
  | .hbm, ⟨103, _⟩ => ⟨S128, .f32⟩
  | .hbm, ⟨104, _⟩ => ⟨S50000x128, .f32⟩
  | .hbm, ⟨105, _⟩ => ⟨S_, .i32⟩
  | .hbm, ⟨106, _⟩ => ⟨S850000, .i32⟩
  | .hbm, ⟨107, _⟩ => ⟨S850000, .i1⟩
  | .hbm, ⟨108, _⟩ => ⟨S_, .i32⟩
  | .hbm, ⟨109, _⟩ => ⟨S850000, .i32⟩
  | .hbm, ⟨110, _⟩ => ⟨S850000, .i32⟩
  | .hbm, ⟨111, _⟩ => ⟨S850000, .i32⟩
  | .hbm, ⟨112, _⟩ => ⟨S850000x1, .i32⟩
  | .hbm, ⟨113, _⟩ => ⟨S850000x128, .f32⟩
  | .hbm, ⟨114, _⟩ => ⟨S850000x1, .f32⟩
  | .hbm, ⟨115, _⟩ => ⟨S850000x128, .f32⟩
  | .hbm, ⟨116, _⟩ => ⟨S850000x128, .f32⟩
  | .hbm, ⟨117, _⟩ => ⟨S_, .f32⟩
  | .hbm, ⟨118, _⟩ => ⟨S50000x128, .f32⟩
  | .hbm, ⟨119, _⟩ => ⟨S850000x1, .i32⟩
  | .hbm, ⟨120, _⟩ => ⟨S50000x128, .f32⟩
  | .hbm, ⟨121, _⟩ => ⟨S1x128, .f32⟩
  | .hbm, ⟨122, _⟩ => ⟨S128, .f32⟩
  | .hbm, ⟨123, _⟩ => ⟨S50000x128, .f32⟩
  | .hbm, ⟨124, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x64, .f32⟩
  | .local _ .vmem, ⟨42, _⟩ => ⟨S64, .f32⟩
  | .local _ .vmem, ⟨43, _⟩ => ⟨S5000x64, .f32⟩
  | .local _ .vmem, ⟨44, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  bcast_S_S128 : S_.BroadcastsInDim S128 (![] : Fin 0 → Fin S128.rank)
  shapeCasts_S5000x128_S5000x128 : S5000x128.ShapeCasts S5000x128
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg7) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S1x128x128 : Shape := ⟨3, ![1, 128, 128]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S3x128x128, .f32⟩
  | 5 => ⟨S3x128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S1x128, .f32⟩
  | 58 => ⟨S128, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S1x128, .f32⟩
  | 85 => ⟨S128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x128, .f32⟩
  | 110 => ⟨S128x128, .f32⟩
  | 111 => ⟨S1x128, .f32⟩
  | 112 => ⟨S128, .f32⟩
  | 113 => ⟨S50000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x128, .f32⟩
  | 123 => ⟨S850000x1, .f32⟩
  | 124 => ⟨S850000x128, .f32⟩
  | 125 => ⟨S850000x128, .f32⟩
  | 126 => ⟨S_, .f32⟩
  | 127 => ⟨S50000x128, .f32⟩
  | _ => ⟨S50000x128, .f32⟩

abbrev hbmTy0_1 (i : Nat) : BufTy := match i % 128 with
  | 0 => ⟨S850000x1, .i32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x64, .f32⟩
  | 9 => ⟨S1x64, .f32⟩
  | 10 => ⟨S50000x64, .f32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call2_cst : Ref sig .tc := ⟨.hbm, 106, rfl⟩
abbrev main_call2_v0 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_13 : Ref sig .tc := ⟨.hbm, 114, rfl⟩
abbrev main_v85 : Ref sig .tc := ⟨.hbm, 115, rfl⟩
abbrev main_v86 : Ref sig .tc := ⟨.hbm, 116, rfl⟩
abbrev main_c_14 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call3_cst : Ref sig .tc := ⟨.hbm, 133, rfl⟩
abbrev main_call3_v0 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run with its RESULT named: every weakly fair execution of the eight regions and the host
  operations between them terminates with the result array holding what the last region's write-backs leave
  (the boundary contents after region 7, read at the result's buffer) and with every argument array unchanged.
  The boundary contents are the fold through the program: each stretch of host operations applied to what the
  previous boundary held, each region's arrays replaced by what its pipeline leaves.
-/
import proofs.«151434_j40080634806825_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result read: the result's buffer ends at the last boundary's contents, the arguments as launched. -/
theorem run_result : θ_run defs (onTc (τ := τ) (main (F := F))) ⟨m, fun _ => 0, ρ⟩ (fun r => ∀ c : Dev nD,
      r.2.mem ((c.tc : Thread nD τ).loc main_v93) = W17 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v93 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.Hand

end
-- ==== Proof.Spec.lean ====
/-
  What the network computes on one array, stated once over plain index functions on the extended reals:
  a product of a tall matrix with a weight matrix (row `i 0` against column `i 1`), a bias row added to every
  row, and the rectifier `max(·, 0)`. The kernel's tiled regions and the reference's whole-array operations are
  both shown to be compositions of these three.
-/
import Idealize.ShloMosaic.PureOps.Ideal
import Idealize.ShloMosaic.Lib.ValueIdx

noncomputable section

open scoped BigOperators

namespace Cert.Gcn

open Idealize.ShloMosaic Idealize.ShloMosaic.ValueIdx

/-- `X · W` at an index: the sum over the shared axis of row `i 0` of `X` times column `i 1` of `W`. -/
def mm {N K M : Nat} (X : (⟨2, ![N, K]⟩ : Shape).Idx → EReal) (W : (⟨2, ![K, M]⟩ : Shape).Idx → EReal) :
    (⟨2, ![N, M]⟩ : Shape).Idx → EReal :=
  fun i => ∑ k : Fin K, X (ix2 (⟨(i 0).val, idx2_lt0 i⟩ : Fin N) k) * W (ix2 k (⟨(i 1).val, idx2_lt1 i⟩ : Fin M))

/-- A bias row added to every row of `A`. -/
def addRow {N M : Nat} (A : (⟨2, ![N, M]⟩ : Shape).Idx → EReal) (b : (⟨1, ![M]⟩ : Shape).Idx → EReal) :
    (⟨2, ![N, M]⟩ : Shape).Idx → EReal :=
  fun i => A i + b (ix1 (⟨(i 1).val, idx2_lt1 i⟩ : Fin M))

/-- The rectifier: every entry against the real zero. -/
def relu {N M : Nat} (A : (⟨2, ![N, M]⟩ : Shape).Idx → EReal) : (⟨2, ![N, M]⟩ : Shape).Idx → EReal :=
  fun i => max (A i) (Ideal.ofBits .f32 0x00000000#32)

theorem mm_ix2 {N K M : Nat} (X : (⟨2, ![N, K]⟩ : Shape).Idx → EReal) (W : (⟨2, ![K, M]⟩ : Shape).Idx → EReal)
    (r : Fin N) (j : Fin M) : mm X W (ix2 r j) = ∑ k : Fin K, X (ix2 r k) * W (ix2 k j) := rfl

theorem addRow_ix2 {N M : Nat} (A : (⟨2, ![N, M]⟩ : Shape).Idx → EReal) (b : (⟨1, ![M]⟩ : Shape).Idx → EReal)
    (r : Fin N) (j : Fin M) : addRow A b (ix2 r j) = A (ix2 r j) + b (ix1 j) := rfl

theorem relu_ix2 {N M : Nat} (A : (⟨2, ![N, M]⟩ : Shape).Idx → EReal) (r : Fin N) (j : Fin M) :
    relu A (ix2 r j) = max (A (ix2 r j)) (Ideal.ofBits .f32 0x00000000#32) := rfl

end Cert.Gcn

end
-- ==== Proof.Stages.lean ====
/-
  The graph-convolution network as ONE function of the eight argument arrays, built from the host operations
  both programs share and from the three array functions of Spec.lean.

  The edge list gives, per message, a source and a target node: its two rows, each followed by one self-loop
  per node (`srcOf`, `dstOf`). A node's degree counts the messages that target it; `disOf` is its inverse
  square root where the degree is positive and zero elsewhere; a message's weight is the product of that at its
  two ends (`normOf`). A negative node number is read from the end of the node axis (`wrap`). One round of
  message passing (`agg`) gathers the rows of a feature array at the sources, scales each by the message's
  weight and sums them into the rows of the targets. A layer multiplies by its weight matrix, passes messages,
  adds its bias row and rectifies; the network is an input projection with bias, three layers, and an output
  projection with bias (`net`). The gathers and scatter-adds are never opened: both programs apply the same
  ones to arrays that are shown equal.
-/
import proofs.«151434_j40080634806825_1_alg».proof.ReferenceIdeal
import proofs.«151434_j40080634806825_1_alg».proof.Proof.Gen.ReferenceIdeal
import proofs.«151434_j40080634806825_1_alg».proof.Proof.Spec

noncomputable section

namespace Cert.Gcn

open Cert.ReferenceIdeal Cert.ReferenceIdeal.Gen Idealize.ShloMosaic

abbrev Edges := IVec S2x800000 32
abbrev Ends := IVec S850000 32
abbrev Wts := FVec Ideal S850000 .f32
abbrev NodeVec := FVec Ideal S50000 .f32
abbrev Feat := FVec Ideal S50000x128 .f32
abbrev Wmat := FVec Ideal S128x128 .f32
abbrev Bvec := FVec Ideal S128 .f32
abbrev Wstack := FVec Ideal S3x128x128 .f32
abbrev Bstack := FVec Ideal S3x128 .f32

/-- The messages' sources: row 0 of the edge list, then every node once. -/
def srcOf (e : Edges) : Ends :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The messages' targets: row 1 of the edge list, then every node once. -/
def dstOf (e : Edges) : Ends :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end of the node axis. -/
def wrap (v : Ends) : Ends :=
  select (cmpi .slt v (broadcastInDim S850000 ![] bcast_S_S850000 (constantI S_ 32 0#32))) (addi v (broadcastInDim S850000 ![] bcast_S_S850000 (constantI S_ 32 50000#32))) v

/-- A node's degree: one for every message that targets it. -/
def degOf (e : Edges) : NodeVec :=
  Host.scatterAdd (F := Ideal) scatter_S50000_S850000x1_S850000_n_0_0_1 (broadcastInDim S50000 ![] bcast_S_S50000 (constant (F := Ideal) S_ .f32 0x00000000#32)) (broadcastInDim S850000x1 ![0] bcast_S850000_S850000x1_0 (dstOf e)) (broadcastInDim S850000 ![] bcast_S_S850000 (constant (F := Ideal) S_ .f32 0x3F800000#32))

/-- Where the degree is positive. -/
def posOf (e : Edges) : IVec S50000 1 :=
  cmpf (F := Ideal) .ogt (degOf e) (broadcastInDim S50000 ![] bcast_S_S50000 (constant (F := Ideal) S_ .f32 0x00000000#32))

/-- The inverse square root of the degree raised to at least one. -/
def rsOf (e : Edges) : NodeVec :=
  Host.rsqrt (F := Ideal) (maximumf (F := Ideal) (degOf e) (broadcastInDim S50000 ![] bcast_S_S50000 (constant (F := Ideal) S_ .f32 0x3F800000#32)))

/-- The scalar zero. -/
def zeroS : FVec Ideal S_ .f32 := constant (F := Ideal) S_ .f32 0x00000000#32

/-- `a` where `p` holds, the scalar `z` elsewhere. -/
def whereOf (p : IVec S50000 1) (a : NodeVec) (z : FVec Ideal S_ .f32) : NodeVec :=
  select p a (broadcastInDim S50000 ![] bcast_S_S50000 (id z))

/-- The inverse square root of the degree where it is positive, zero elsewhere. -/
def disOf (e : Edges) : NodeVec := whereOf (posOf e) (rsOf e) zeroS

/-- A message's weight from the per-node factor: the factor at its source times the factor at its target. -/
def edgeW (dis : NodeVec) (src dst : Ends) : Wts :=
  mulf (F := Ideal) (Host.gather gather_S50000_S850000x1_S850000_n_0_n_n_0_1_1 dis (broadcastInDim S850000x1 ![0] bcast_S850000_S850000x1_0 (wrap src))) (Host.gather gather_S50000_S850000x1_S850000_n_0_n_n_0_1_1 dis (broadcastInDim S850000x1 ![0] bcast_S850000_S850000x1_0 (wrap dst)))

/-- A message's weight: the product of `disOf` at its source and at its target. -/
def normOf (e : Edges) : Wts := edgeW (disOf e) (srcOf e) (dstOf e)

/-- One round of message passing: the rows at the sources, each scaled by its message's weight, summed into the
    rows of the targets. -/
def agg (hw : Feat) (src dst : Ends) (nrm : Wts) : Feat :=
  Host.scatterAdd (F := Ideal) scatter_S50000x128_S850000x1_S850000x128_1_0_0_1 (broadcastInDim S50000x128 ![] bcast_S_S50000x128 (constant (F := Ideal) S_ .f32 0x00000000#32)) (broadcastInDim S850000x1 ![0] bcast_S850000_S850000x1_0 dst) (mulf (F := Ideal) (Host.gather gather_S50000x128_S850000x1_S850000x128_1_0_n_n_0_1_1128 hw (broadcastInDim S850000x1 ![0] bcast_S850000_S850000x1_0 (wrap src))) (broadcastInDim S850000x128 ![0, 1] bcast_S850000x1_S850000x128_0_1 (broadcastInDim S850000x1 ![0] bcast_S850000_S850000x1_0 nrm)))

/-- Layer 0's weight matrix and bias row out of the stacks. -/
def w0 (Wc : Wstack) : Wmat := shapeCast _ (extractStridedSlice S1x128x128 ![0, 0, 0] Wc slices_S3x128x128_S1x128x128_0_0_0) shapeCasts_S1x128x128_S128x128
def b0 (bc : Bstack) : Bvec := shapeCast _ (extractStridedSlice S1x128 ![0, 0] bc slices_S3x128_S1x128_0_0) shapeCasts_S1x128_S128
/-- Layer 1's. -/
def w1 (Wc : Wstack) : Wmat := shapeCast _ (extractStridedSlice S1x128x128 ![1, 0, 0] Wc slices_S3x128x128_S1x128x128_1_0_0) shapeCasts_S1x128x128_S128x128
def b1 (bc : Bstack) : Bvec := shapeCast _ (extractStridedSlice S1x128 ![1, 0] bc slices_S3x128_S1x128_1_0) shapeCasts_S1x128_S128
/-- Layer 2's. -/
def w2 (Wc : Wstack) : Wmat := shapeCast _ (extractStridedSlice S1x128x128 ![2, 0, 0] Wc slices_S3x128x128_S1x128x128_2_0_0) shapeCasts_S1x128x128_S128x128
def b2 (bc : Bstack) : Bvec := shapeCast _ (extractStridedSlice S1x128 ![2, 0] bc slices_S3x128_S1x128_2_0) shapeCasts_S1x128_S128

/-- One layer: multiply by the weight matrix, pass messages, add the bias row, rectify. -/
def layer (h : Feat) (W : Wmat) (b : Bvec) (e : Edges) : Feat :=
  relu (N := 50000) (M := 128) (addRow (N := 50000) (M := 128) (agg (mm (N := 50000) (K := 128) (M := 128) h W) (srcOf e) (dstOf e) (normOf e)) b)

/-- The network: input projection with bias, three layers, output projection with bias. -/
def net (x : Feat) (e : Edges) (Wp : Wmat) (bp : Bvec) (Wc : Wstack) (bc : Bstack)
    (Wo : FVec Ideal S128x64 .f32) (bo : FVec Ideal S64 .f32) :
    FVec Ideal S50000x64 .f32 :=
  addRow (N := 50000) (M := 64) (mm (N := 50000) (K := 128) (M := 64)
    (layer (layer (layer (addRow (N := 50000) (M := 128) (mm (N := 50000) (K := 128) (M := 128) x Wp) bp) (w0 Wc) (b0 bc) e) (w1 Wc) (b1 bc) e) (w2 Wc) (b2 bc) e) Wo) bo

end Cert.Gcn

end
-- ==== Proof.HostOps.lean ====
/-
  The kernel program's stretches of host operations between its regions, each read as a function of the buffer
  contents it starts from. The odd stretches cut a layer's weight matrix out of the stack; the even ones pass the
  messages (gather at the sources, scale, scatter-add into the targets — the function `agg`, applied to the
  product the region before left) and cut the layer's bias row out. Every stretch leaves the message ends, the
  message weights and the argument arrays it does not write where they were (`Live`).
-/
import proofs.«151434_j40080634806825_1_alg».proof.Proof.Gen.KernelIdeal.Launch
import proofs.«151434_j40080634806825_1_alg».proof.Proof.Stages
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

abbrev Wout := FVec Ideal Cert.ReferenceIdeal.S128x64 .f32
abbrev Bout := FVec Ideal Cert.ReferenceIdeal.S64 .f32

/-- What every boundary of the program after the first stretch holds besides the features: the messages' sources
    and targets, their weights, and the four argument arrays still to be read. -/
structure Live (e : Cert.Gcn.Edges) (a4 : Cert.Gcn.Wstack) (a5 : Cert.Gcn.Bstack) (a6 : Wout) (a7 : Bout)
    (W : Valuation τ sig (Elt Ideal)) : Prop where
  src : W (Proc.devRef .tc main_v3) = Cert.Gcn.srcOf e
  dst : W (Proc.devRef .tc main_v6) = Cert.Gcn.dstOf e
  nrm : W (Proc.devRef .tc main_v31) = Cert.Gcn.normOf e
  k4 : W (Proc.devRef .tc main_arg4) = a4
  k5 : W (Proc.devRef .tc main_arg5) = a5
  k6 : W (Proc.devRef .tc main_arg6) = a6
  k7 : W (Proc.devRef .tc main_arg7) = a7

theorem live_host1 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps1 (F := Ideal)) W) := by
  refine ⟨?_, ?_, ?_, ?_, ?_, ?_, ?_⟩ <;> (simp only [hostOps1]; after_results_simp)
  exacts [h.src, h.dst, h.nrm, h.k4, h.k5, h.k6, h.k7]

theorem live_host2 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps2 (F := Ideal)) W) := by
  refine ⟨?_, ?_, ?_, ?_, ?_, ?_, ?_⟩ <;> (simp only [hostOps2]; after_results_simp)
  exacts [h.src, h.dst, h.nrm, h.k4, h.k5, h.k6, h.k7]

theorem live_host3 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps3 (F := Ideal)) W) := by
  refine ⟨?_, ?_, ?_, ?_, ?_, ?_, ?_⟩ <;> (simp only [hostOps3]; after_results_simp)
  exacts [h.src, h.dst, h.nrm, h.k4, h.k5, h.k6, h.k7]

theorem live_host4 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps4 (F := Ideal)) W) := by
  refine ⟨?_, ?_, ?_, ?_, ?_, ?_, ?_⟩ <;> (simp only [hostOps4]; after_results_simp)
  exacts [h.src, h.dst, h.nrm, h.k4, h.k5, h.k6, h.k7]

theorem live_host5 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps5 (F := Ideal)) W) := by
  refine ⟨?_, ?_, ?_, ?_, ?_, ?_, ?_⟩ <;> (simp only [hostOps5]; after_results_simp)
  exacts [h.src, h.dst, h.nrm, h.k4, h.k5, h.k6, h.k7]

theorem live_host6 {e : Cert.Gcn.Edges} {a4 : Cert.Gcn.Wstack} {a5 : Cert.Gcn.Bstack} {a6 : Wout} {a7 : Bout} {W : Valuation τ sig (Elt Ideal)}
    (h : Live e a4 a5 a6 a7 W) : Live e a4 a5 a6 a7 (StableHlo.after (hostOps6 (F := Ideal)) W) := by
  refine ⟨?_, ?_, ?_, ?_, ?_, ?_, ?_⟩ <;> (simp only [hostOps6]; after_results_simp)
  exacts [h.src, h.dst, h.nrm, h.k4, h.k5, h.k6, h.k7]

/-- Stretch 1 cuts the next layer's weight matrix out of the stack and leaves the features where they are. -/
theorem host1_w (W : Valuation τ sig (Elt Ideal)) :
    StableHlo.after (hostOps1 (F := Ideal)) W (Proc.devRef .tc main_v34) = Cert.Gcn.w0 (W (Proc.devRef .tc main_arg4)) := by
  simp only [hostOps1]
  after_results_simp
  rfl
theorem host1_h (W : Valuation τ sig (Elt Ideal)) :
    StableHlo.after (hostOps1 (F := Ideal)) W (Proc.devRef .tc main_v32) = W (Proc.devRef .tc main_v32) := by
  simp only [hostOps1]
  after_results_simp

/-- Stretch 2 passes the messages: the rows of the product at the sources, scaled, summed into the targets; and it
    cuts the layer's bias row out of the stack. -/
theorem host2_agg (W : Valuation τ sig (Elt Ideal)) :
    StableHlo.after (hostOps2 (F := Ideal)) W (Proc.devRef .tc main_v49)
      = Cert.Gcn.agg (W (Proc.devRef .tc main_v36)) (W (Proc.devRef .tc main_v3)) (W (Proc.devRef .tc main_v6)) (W (Proc.devRef .tc main_v31)) := by
  simp only [hostOps2]
  after_results_simp
  rfl
theorem host2_b (W : Valuation τ sig (Elt Ideal)) :
    StableHlo.after (hostOps2 (F := Ideal)) W (Proc.devRef .tc main_v51) = Cert.Gcn.b0 (W (Proc.devRef .tc main_arg5)) := by
  simp only [hostOps2]
  after_results_simp
  rfl

/-- Stretch 3 cuts the next layer's weight matrix out of the stack and leaves the features where they are. -/
theorem host3_w (W : Valuation τ sig (Elt Ideal)) :
    StableHlo.after (hostOps3 (F := Ideal)) W (Proc.devRef .tc main_v54) = Cert.Gcn.w1 (W (Proc.devRef .tc main_arg4)) := by
  simp only [hostOps3]
  after_results_simp
  rfl
theorem host3_h (W : Valuation τ sig (Elt Ideal)) :
    StableHlo.after (hostOps3 (F := Ideal)) W (Proc.devRef .tc main_v52) = W (Proc.devRef .tc main_v52) := by
  simp only [hostOps3]
  after_results_simp

/-- Stretch 4 passes the messages: the rows of the product at the sources, scaled, summed into the targets; and it
    cuts the layer's bias row out of the stack. -/
theorem host4_agg (W : Valuation τ sig (Elt Ideal)) :
    StableHlo.after (hostOps4 (F := Ideal)) W (Proc.devRef .tc main_v69)
      = Cert.Gcn.agg (W (Proc.devRef .tc main_v56)) (W (Proc.devRef .tc main_v3)) (W (Proc.devRef .tc main_v6)) (W (Proc.devRef .tc main_v31)) := by
  simp only [hostOps4]
  after_results_simp
  rfl
theorem host4_b (W : Valuation τ sig (Elt Ideal)) :
    StableHlo.after (hostOps4 (F := Ideal)) W (Proc.devRef .tc main_v71) = Cert.Gcn.b1 (W (Proc.devRef .tc main_arg5)) := by
  simp only [hostOps4]
  after_results_simp
  rfl

/-- Stretch 5 cuts the next layer's weight matrix out of the stack and leaves the features where they are. -/
theorem host5_w (W : Valuation τ sig (Elt Ideal)) :
    StableHlo.after (hostOps5 (F := Ideal)) W (Proc.devRef .tc main_v74) = Cert.Gcn.w2 (W (Proc.devRef .tc main_arg4)) := by
  simp only [hostOps5]
  after_results_simp
  rfl
theorem host5_h (W : Valuation τ sig (Elt Ideal)) :
    StableHlo.after (hostOps5 (F := Ideal)) W (Proc.devRef .tc main_v72) = W (Proc.devRef .tc main_v72) := by
  simp only [hostOps5]
  after_results_simp

/-- Stretch 6 passes the messages: the rows of the product at the sources, scaled, summed into the targets; and it
    cuts the layer's bias row out of the stack. -/
theorem host6_agg (W : Valuation τ sig (Elt Ideal)) :
    StableHlo.after (hostOps6 (F := Ideal)) W (Proc.devRef .tc main_v89)
      = Cert.Gcn.agg (W (Proc.devRef .tc main_v76)) (W (Proc.devRef .tc main_v3)) (W (Proc.devRef .tc main_v6)) (W (Proc.devRef .tc main_v31)) := by
  simp only [hostOps6]
  after_results_simp
  rfl
theorem host6_b (W : Valuation τ sig (Elt Ideal)) :
    StableHlo.after (hostOps6 (F := Ideal)) W (Proc.devRef .tc main_v91) = Cert.Gcn.b2 (W (Proc.devRef .tc main_arg5)) := by
  simp only [hostOps6]
  after_results_simp
  rfl

end Cert.KernelIdeal.Hand

end
-- ==== Proof.Host0.lean ====
/-
  The kernel program's first stretches of host operations, each read as a function of the buffer contents it
  starts from: the first computes the messages' ends from the edge list, where the degree is positive, and the
  inverse square root of the degree raised to at least one; the second selects between that and zero; the third
  gathers the result at the two ends of every message and multiplies. None of them writes an argument array.
-/
import proofs.«151434_j40080634806825_1_alg».proof.Proof.Gen.KernelIdeal.Launch
import proofs.«151434_j40080634806825_1_alg».proof.Proof.Stages
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

theorem host0_src (W : Valuation τ sig (Elt Ideal)) :
    StableHlo.after (hostOps0 (F := Ideal)) W (Proc.devRef .tc main_v3) = Cert.Gcn.srcOf (W (Proc.devRef .tc main_arg1)) := by
  simp only [hostOps0]
  after_results_simp
  rfl
theorem host0_dst (W : Valuation τ sig (Elt Ideal)) :
    StableHlo.after (hostOps0 (F := Ideal)) W (Proc.devRef .tc main_v6) = Cert.Gcn.dstOf (W (Proc.devRef .tc main_arg1)) := by
  simp only [hostOps0]
  after_results_simp
  rfl
theorem host0_pos (W : Valuation τ sig (Elt Ideal)) :
    StableHlo.after (hostOps0 (F := Ideal)) W (Proc.devRef .tc main_v12) = Cert.Gcn.posOf (W (Proc.devRef .tc main_arg1)) := by
  simp only [hostOps0]
  after_results_simp
  rfl
theorem host0_rs (W : Valuation τ sig (Elt Ideal)) :
    StableHlo.after (hostOps0 (F := Ideal)) W (Proc.devRef .tc main_v15) = Cert.Gcn.rsOf (W (Proc.devRef .tc main_arg1)) := by
  simp only [hostOps0]
  after_results_simp
  rfl
theorem host0_z (W : Valuation τ sig (Elt Ideal)) :
    StableHlo.after (hostOps0 (F := Ideal)) W (Proc.devRef .tc main_cst_3) = Cert.Gcn.zeroS := by
  simp only [hostOps0]
  after_results_simp
  rfl

theorem keep0 (W : Valuation τ sig (Elt Ideal)) :
    StableHlo.after (hostOps0 (F := Ideal)) W (Proc.devRef .tc main_arg0) = W (Proc.devRef .tc main_arg0)
    ∧ StableHlo.after (hostOps0 (F := Ideal)) W (Proc.devRef .tc main_arg2) = W (Proc.devRef .tc main_arg2)
    ∧ StableHlo.after (hostOps0 (F := Ideal)) W (Proc.devRef .tc main_arg3) = W (Proc.devRef .tc main_arg3)
    ∧ StableHlo.after (hostOps0 (F := Ideal)) W (Proc.devRef .tc main_arg4) = W (Proc.devRef .tc main_arg4)
    ∧ StableHlo.after (hostOps0 (F := Ideal)) W (Proc.devRef .tc main_arg5) = W (Proc.devRef .tc main_arg5)
    ∧ StableHlo.after (hostOps0 (F := Ideal)) W (Proc.devRef .tc main_arg6) = W (Proc.devRef .tc main_arg6)
    ∧ StableHlo.after (hostOps0 (F := Ideal)) W (Proc.devRef .tc main_arg7) = W (Proc.devRef .tc main_arg7) := by
  refine ⟨?_, ?_, ?_, ?_, ?_, ?_, ?_⟩ <;> (simp only [hostOps0]; after_results_simp)

/-- The second stretch: the per-node factor, selected. -/
theorem host01_dis (W : Valuation τ sig (Elt Ideal)) :
    StableHlo.after (hostOps0_1 (F := Ideal)) W (Proc.devRef .tc main_v16)
      = Cert.Gcn.whereOf (W (Proc.devRef .tc main_v12)) (W (Proc.devRef .tc main_v15)) (W (Proc.devRef .tc main_cst_3)) := by
  simp only [hostOps0_1]
  after_results_simp
  rfl

theorem keep01 (W : Valuation τ sig (Elt Ideal)) :
    StableHlo.after (hostOps0_1 (F := Ideal)) W (Proc.devRef .tc main_v3) = W (Proc.devRef .tc main_v3)
    ∧ StableHlo.after (hostOps0_1 (F := Ideal)) W (Proc.devRef .tc main_v6) = W (Proc.devRef .tc main_v6)
    ∧ StableHlo.after (hostOps0_1 (F := Ideal)) W (Proc.devRef .tc main_arg0) = W (Proc.devRef .tc main_arg0)
    ∧ StableHlo.after (hostOps0_1 (F := Ideal)) W (Proc.devRef .tc main_arg2) = W (Proc.devRef .tc main_arg2)
    ∧ StableHlo.after (hostOps0_1 (F := Ideal)) W (Proc.devRef .tc main_arg3) = W (Proc.devRef .tc main_arg3)
    ∧ StableHlo.after (hostOps0_1 (F := Ideal)) W (Proc.devRef .tc main_arg4) = W (Proc.devRef .tc main_arg4)
    ∧ StableHlo.after (hostOps0_1 (F := Ideal)) W (Proc.devRef .tc main_arg5) = W (Proc.devRef .tc main_arg5)
    ∧ StableHlo.after (hostOps0_1 (F := Ideal)) W (Proc.devRef .tc main_arg6) = W (Proc.devRef .tc main_arg6)
    ∧ StableHlo.after (hostOps0_1 (F := Ideal)) W (Proc.devRef .tc main_arg7) = W (Proc.devRef .tc main_arg7) := by
  refine ⟨?_, ?_, ?_, ?_, ?_, ?_, ?_, ?_, ?_⟩ <;> (simp only [hostOps0_1]; after_results_simp)

/-- The third stretch: the messages' weights from the per-node factor and the ends. -/
theorem host02_nrm (W : Valuation τ sig (Elt Ideal)) :
    StableHlo.after (hostOps0_2 (F := Ideal)) W (Proc.devRef .tc main_v31)
      = Cert.Gcn.edgeW (W (Proc.devRef .tc main_v16)) (W (Proc.devRef .tc main_v3)) (W (Proc.devRef .tc main_v6)) := by
  simp only [hostOps0_2]
  after_results_simp
  rfl

theorem keep02 (W : Valuation τ sig (Elt Ideal)) :
    StableHlo.after (hostOps0_2 (F := Ideal)) W (Proc.devRef .tc main_v3) = W (Proc.devRef .tc main_v3)
    ∧ StableHlo.after (hostOps0_2 (F := Ideal)) W (Proc.devRef .tc main_v6) = W (Proc.devRef .tc main_v6)
    ∧ StableHlo.after (hostOps0_2 (F := Ideal)) W (Proc.devRef .tc main_arg0) = W (Proc.devRef .tc main_arg0)
    ∧ StableHlo.after (hostOps0_2 (F := Ideal)) W (Proc.devRef .tc main_arg2) = W (Proc.devRef .tc main_arg2)
    ∧ StableHlo.after (hostOps0_2 (F := Ideal)) W (Proc.devRef .tc main_arg3) = W (Proc.devRef .tc main_arg3)
    ∧ StableHlo.after (hostOps0_2 (F := Ideal)) W (Proc.devRef .tc main_arg4) = W (Proc.devRef .tc main_arg4)
    ∧ StableHlo.after (hostOps0_2 (F := Ideal)) W (Proc.devRef .tc main_arg5) = W (Proc.devRef .tc main_arg5)
    ∧ StableHlo.after (hostOps0_2 (F := Ideal)) W (Proc.devRef .tc main_arg6) = W (Proc.devRef .tc main_arg6)
    ∧ StableHlo.after (hostOps0_2 (F := Ideal)) W (Proc.devRef .tc main_arg7) = W (Proc.devRef .tc main_arg7) := by
  refine ⟨?_, ?_, ?_, ?_, ?_, ?_, ?_, ?_, ?_⟩ <;> (simp only [hostOps0_2]; after_results_simp)

end Cert.KernelIdeal.Hand

end
-- ==== Proof.Pay.lean ====
/-
  What each region's body stores, read at one entry of its block on the extended reals. A linear region stores
  the block's row against the weight's column (plus the bias entry where the region adds it); a bias-and-rectify
  region stores the entry plus the bias entry, against zero. The roundings to bf16 on the way into the matrix unit
  are the identity here, a shape cast to the same shape is the identity, and the bias vector viewed as one row and
  repeated down the block reads its entry at the column.
-/
import proofs.«151434_j40080634806825_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The zero offsets of a whole-buffer access, however spelt. -/
theorem hz2 : (![0, 0] : Fin 2 → Nat) = fun _ => 0 := funext fun a => by fin_cases a <;> rfl
theorem hz1 : (![0] : Fin 1 → Nat) = fun _ => 0 := funext fun a => by fin_cases a <;> rfl

/-- The operands' indices at output entry `i` and contraction index `q`, coordinate by coordinate (weight [128,128]). -/
theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `tpu.matmul` of a [5000,128] block with a [128,128] weight into the zero accumulator, read at row `p`, column
    `q`: the sum over the shared axis of the products (the contraction index re-indexed to its one coordinate). -/
theorem matmul128_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 (ix2 p q) _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ => exact rhs128_1 (ix2 p q) _)
  rw [el, er]

/-- The operands' indices at output entry `i` and contraction index `q`, coordinate by coordinate (weight [128,64]). -/
theorem lhs64_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs64_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A `tpu.matmul` of a [5000,128] block with a [128,64] weight into the zero accumulator, read at row `p`, column
    `q`: the sum over the shared axis of the products (the contraction index re-indexed to its one coordinate). -/
theorem matmul64_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs64_0 (ix2 p q) _
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ => exact rhs64_1 (ix2 p q) _)
  rw [el, er]

/-- Region 0's stored value at row `p`, column `q` of the block: the block's row against the weight's column, plus
    the bias at `q`. -/
theorem k0_pay1_apply (v0 : Vec Ideal S5000x128 .f32) (v2 : Vec Ideal S128x128 .f32) (v5 : Vec Ideal S128 .f32) (p : Fin 5000) (q : Fin 128) :
    k0_pay1 v0 v2 v5 (ix2 p q) = (∑ k : Fin 128, v0 (ix2 p k) * v2 (ix2 k q)) + v5 (ix1 q) := by
  unfold k0_pay1
  refine (addf_apply _ _ (ix2 p q)).trans ?_
  refine congrArg₂ (· + ·) (matmul128_apply _ _ p q) ?_
  refine (broadcastTo_1b_ab_apply _ _ p q).trans ?_
  exact shapeCast_a_1a_apply v5 _ 0 q

/-- Region 1's stored value at row `p`, column `q` of the block: the block's row against the weight's column
    (the changes of float format are the identity on extended reals, the casts to the same shape the identity). -/
theorem k1_pay1_apply (v0 : Vec Ideal S5000x128 .f32) (v3 : Vec Ideal S128x128 .f32) (p : Fin 5000) (q : Fin 128) :
    k1_pay1 v0 v3 (ix2 p q) = ∑ k : Fin 128, v0 (ix2 p k) * v3 (ix2 k q) := by
  unfold k1_pay1
  simp only [shapeCast_self]
  exact matmul128_apply _ _ p q

/-- Region 3's stored value at row `p`, column `q` of the block: the block's row against the weight's column
    (the changes of float format are the identity on extended reals, the casts to the same shape the identity). -/
theorem k3_pay1_apply (v0 : Vec Ideal S5000x128 .f32) (v3 : Vec Ideal S128x128 .f32) (p : Fin 5000) (q : Fin 128) :
    k3_pay1 v0 v3 (ix2 p q) = ∑ k : Fin 128, v0 (ix2 p k) * v3 (ix2 k q) := by
  unfold k3_pay1
  simp only [shapeCast_self]
  exact matmul128_apply _ _ p q

/-- Region 5's stored value at row `p`, column `q` of the block: the block's row against the weight's column
    (the changes of float format are the identity on extended reals, the casts to the same shape the identity). -/
theorem k5_pay1_apply (v0 : Vec Ideal S5000x128 .f32) (v3 : Vec Ideal S128x128 .f32) (p : Fin 5000) (q : Fin 128) :
    k5_pay1 v0 v3 (ix2 p q) = ∑ k : Fin 128, v0 (ix2 p k) * v3 (ix2 k q) := by
  unfold k5_pay1
  simp only [shapeCast_self]
  exact matmul128_apply _ _ p q

/-- Region 2's stored value at row `p`, column `q`: the entry plus the bias at `q`, against zero. -/
theorem k2_pay1_apply (v0 : Vec Ideal S5000x128 .f32) (v2 : Vec Ideal S128 .f32) (p : Fin 5000) (q : Fin 128) :
    k2_pay1 v0 v2 (ix2 p q) = max (v0 (ix2 p q) + v2 (ix1 q)) (Ideal.ofBits .f32 0x00000000#32) := by
  unfold k2_pay1
  simp only [shapeCast_self]
  refine (maximumf_apply _ _ (ix2 p q)).trans ?_
  refine congrArg₂ max ?_ rfl
  refine (addf_apply _ _ (ix2 p q)).trans ?_
  refine congrArg (v0 (ix2 p q) + ·) ?_
  refine (broadcastTo_1b_ab_apply _ _ p q).trans ?_
  exact shapeCast_a_1a_apply v2 _ 0 q

/-- Region 4's stored value at row `p`, column `q`: the entry plus the bias at `q`, against zero. -/
theorem k4_pay1_apply (v0 : Vec Ideal S5000x128 .f32) (v2 : Vec Ideal S128 .f32) (p : Fin 5000) (q : Fin 128) :
    k4_pay1 v0 v2 (ix2 p q) = max (v0 (ix2 p q) + v2 (ix1 q)) (Ideal.ofBits .f32 0x00000000#32) := by
  unfold k4_pay1
  simp only [shapeCast_self]
  refine (maximumf_apply _ _ (ix2 p q)).trans ?_
  refine congrArg₂ max ?_ rfl
  refine (addf_apply _ _ (ix2 p q)).trans ?_
  refine congrArg (v0 (ix2 p q) + ·) ?_
  refine (broadcastTo_1b_ab_apply _ _ p q).trans ?_
  exact shapeCast_a_1a_apply v2 _ 0 q

/-- Region 6's stored value at row `p`, column `q`: the entry plus the bias at `q`, against zero. -/
theorem k6_pay1_apply (v0 : Vec Ideal S5000x128 .f32) (v2 : Vec Ideal S128 .f32) (p : Fin 5000) (q : Fin 128) :
    k6_pay1 v0 v2 (ix2 p q) = max (v0 (ix2 p q) + v2 (ix1 q)) (Ideal.ofBits .f32 0x00000000#32) := by
  unfold k6_pay1
  simp only [shapeCast_self]
  refine (maximumf_apply _ _ (ix2 p q)).trans ?_
  refine congrArg₂ max ?_ rfl
  refine (addf_apply _ _ (ix2 p q)).trans ?_
  refine congrArg (v0 (ix2 p q) + ·) ?_
  refine (broadcastTo_1b_ab_apply _ _ p q).trans ?_
  exact shapeCast_a_1a_apply v2 _ 0 q

/-- Region 7's stored value at row `p`, column `q` of the block: the block's row against the output weight's
    column, plus the bias at `q`. -/
theorem k7_pay1_apply (v0 : Vec Ideal S5000x128 .f32) (v3 : Vec Ideal S128x64 .f32) (v6 : Vec Ideal S64 .f32) (p : Fin 5000) (q : Fin 64) :
    k7_pay1 v0 v3 v6 (ix2 p q) = (∑ k : Fin 128, v0 (ix2 p k) * v3 (ix2 k q)) + v6 (ix1 q) := by
  unfold k7_pay1
  simp only [shapeCast_self]
  refine (addf_apply _ _ (ix2 p q)).trans ?_
  refine congrArg₂ (· + ·) (matmul64_apply _ _ p q) ?_
  refine (broadcastTo_1b_ab_apply _ _ p q).trans ?_
  exact shapeCast_a_1a_apply v6 _ 0 q

end Cert.KernelIdeal.Hand

end
-- ==== Proof.Block.lean ====
/-
  A row block against the whole array. An array of 50000 rows is written in ten blocks of 5000 rows; block `T`'s
  row `p` is the array's row `5000·T + p`, and the columns are not cut. If what a region stores at entry
  `(p, q)` of its block is the product sum (with or without a bias entry), or the biased and rectified entry, of
  the block's rows, then it is the corresponding whole-array function of Spec.lean at the array's entry
  `(5000·T + p, q)`.
-/
import proofs.«151434_j40080634806825_1_alg».proof.Proof.Spec

noncomputable section

open scoped BigOperators

namespace Cert.Gcn

open Idealize.ShloMosaic Idealize.ShloMosaic.ValueIdx

/-- A stored product of the block's rows with the weight is the whole product at the array's entry. -/
theorem mm_block {M : Nat} (pay : (⟨2, ![5000, M]⟩ : Shape).Idx → EReal)
    (x0 : (⟨2, ![5000, 128]⟩ : Shape).Idx → EReal) (x1 W : (⟨2, ![128, M]⟩ : Shape).Idx → EReal)
    (X : (⟨2, ![50000, 128]⟩ : Shape).Idx → EReal) (T : Nat)
    (hp : ∀ (p : Fin 5000) (q : Fin M), pay (ix2 p q) = ∑ k : Fin 128, x0 (ix2 p k) * x1 (ix2 k q))
    (h0 : ∀ (a : (⟨2, ![5000, 128]⟩ : Shape).Idx) (b : (⟨2, ![50000, 128]⟩ : Shape).Idx),
      (b 0).val = 5000 * T + (a 0).val → (b 1).val = (a 1).val → x0 a = X b)
    (h1 : x1 = W)
    (j : (⟨2, ![5000, M]⟩ : Shape).Idx) (i : (⟨2, ![50000, M]⟩ : Shape).Idx)
    (hi0 : (i 0).val = 5000 * T + (j 0).val) (hi1 : (i 1).val = (j 1).val) :
    pay j = mm X W i := by
  subst h1
  obtain ⟨p, q, rfl⟩ : ∃ (p : Fin 5000) (q : Fin M), j = ix2 p q := ⟨j 0, j 1, eq_ix2 j⟩
  obtain ⟨r, s, rfl⟩ : ∃ (r : Fin 50000) (s : Fin M), i = ix2 r s := ⟨i 0, i 1, eq_ix2 i⟩
  have hs : s = q := Fin.ext hi1
  subst hs
  rw [hp, mm_ix2]
  refine Finset.sum_congr rfl fun k _ => ?_
  rw [h0 (ix2 p k) (ix2 r k) hi0 rfl]

/-- The same with the bias entry of the column added. -/
theorem mmb_block {M : Nat} (pay : (⟨2, ![5000, M]⟩ : Shape).Idx → EReal)
    (x0 : (⟨2, ![5000, 128]⟩ : Shape).Idx → EReal) (x1 W : (⟨2, ![128, M]⟩ : Shape).Idx → EReal)
    (x2 b : (⟨1, ![M]⟩ : Shape).Idx → EReal)
    (X : (⟨2, ![50000, 128]⟩ : Shape).Idx → EReal) (T : Nat)
    (hp : ∀ (p : Fin 5000) (q : Fin M), pay (ix2 p q) = (∑ k : Fin 128, x0 (ix2 p k) * x1 (ix2 k q)) + x2 (ix1 q))
    (h0 : ∀ (a : (⟨2, ![5000, 128]⟩ : Shape).Idx) (b : (⟨2, ![50000, 128]⟩ : Shape).Idx),
      (b 0).val = 5000 * T + (a 0).val → (b 1).val = (a 1).val → x0 a = X b)
    (h1 : x1 = W) (h2 : x2 = b)
    (j : (⟨2, ![5000, M]⟩ : Shape).Idx) (i : (⟨2, ![50000, M]⟩ : Shape).Idx)
    (hi0 : (i 0).val = 5000 * T + (j 0).val) (hi1 : (i 1).val = (j 1).val) :
    pay j = addRow (mm X W) b i := by
  subst h1; subst h2
  obtain ⟨p, q, rfl⟩ : ∃ (p : Fin 5000) (q : Fin M), j = ix2 p q := ⟨j 0, j 1, eq_ix2 j⟩
  obtain ⟨r, s, rfl⟩ : ∃ (r : Fin 50000) (s : Fin M), i = ix2 r s := ⟨i 0, i 1, eq_ix2 i⟩
  have hs : s = q := Fin.ext hi1
  subst hs
  rw [hp, addRow_ix2, mm_ix2]
  refine congrArg (· + x2 (ix1 s)) ?_
  refine Finset.sum_congr rfl fun k _ => ?_
  rw [h0 (ix2 p k) (ix2 r k) hi0 rfl]

/-- A stored "entry plus bias, against zero" of the block's rows is the rectified biased array at the array's entry. -/
theorem brelu_block (pay x0 : (⟨2, ![5000, 128]⟩ : Shape).Idx → EReal) (x1 b : (⟨1, ![128]⟩ : Shape).Idx → EReal)
    (A : (⟨2, ![50000, 128]⟩ : Shape).Idx → EReal) (T : Nat)
    (hp : ∀ (p : Fin 5000) (q : Fin 128), pay (ix2 p q) = max (x0 (ix2 p q) + x1 (ix1 q)) (Ideal.ofBits .f32 0x00000000#32))
    (h0 : ∀ (a : (⟨2, ![5000, 128]⟩ : Shape).Idx) (b : (⟨2, ![50000, 128]⟩ : Shape).Idx),
      (b 0).val = 5000 * T + (a 0).val → (b 1).val = (a 1).val → x0 a = A b)
    (h1 : x1 = b)
    (j : (⟨2, ![5000, 128]⟩ : Shape).Idx) (i : (⟨2, ![50000, 128]⟩ : Shape).Idx)
    (hi0 : (i 0).val = 5000 * T + (j 0).val) (hi1 : (i 1).val = (j 1).val) :
    pay j = relu (addRow A b) i := by
  subst h1
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hs : s = q := Fin.ext hi1
  subst hs
  rw [hp, relu_ix2, addRow_ix2, h0 (ix2 p s) (ix2 r s) hi0 rfl]

end Cert.Gcn

end
-- ==== Proof.Reg0.lean ====
/-
  Region 0 as one whole-array function. It stores, block by block, the product of the rows of `main_arg0` with the weight matrix `main_arg2`, plus the bias row `main_arg3`.
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the tall input and the output move with the point along the rows, the
    weight's and the bias's one block stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The tall input's block at point `t` is rows `5000·t …` of the array the region found. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -⟩ := idx0 t
  unfold iblk0
  rw [View.read_apply]
  show (V c main_arg0 : S50000x128.Idx → EReal) _ = (V c main_arg0 : S50000x128.Idx → EReal) _
  refine congrArg (V c main_arg0 : S50000x128.Idx → EReal) (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's block at every point is the whole weight matrix. -/
theorem iblk0_1_eq (c : Dev nD) (t : Fin cfg0.N) :
    (iblk0 V c 1 t : Vec Ideal S128x128 .f32) = (V c main_arg2 : S128x128.Idx → EReal) := by
  obtain ⟨-, -, e0, e1, -⟩ := idx0 t
  funext x
  unfold iblk0
  rw [View.read_apply]
  show (V c main_arg2 : S128x128.Idx → EReal) _ = (V c main_arg2 : S128x128.Idx → EReal) _
  refine congrArg (V c main_arg2 : S128x128.Idx → EReal) (funext fun a => Fin.ext ?_)
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The bias's block at every point is the whole bias vector. -/
theorem iblk0_2_eq (c : Dev nD) (t : Fin cfg0.N) :
    (iblk0 V c 2 t : Vec Ideal S128 .f32) = (V c main_arg3 : S128.Idx → EReal) := by
  obtain ⟨-, -, -, -, e0, -⟩ := idx0 t
  funext x
  unfold iblk0
  rw [View.read_apply]
  show (V c main_arg3 : S128.Idx → EReal) _ = (V c main_arg3 : S128.Idx → EReal) _
  refine congrArg (V c main_arg3 : S128.Idx → EReal) (funext fun a => Fin.ext ?_)
  match a with
  | ⟨0, _⟩ => show win0_2.index t 0 * 128 + 1 * (x 0).val = (x 0).val; rw [e0]; omega

/-- What point `t` writes back is block `t` of the whole product with the bias row added. -/
theorem flushed0_eq (c : Dev nD) (t : Fin cfg0.N) :
    (dat0 V c).flushed 3 t = ((cfg0.win 3).blk t).view.read (Elt Ideal)
      (Cert.Gcn.addRow (N := 50000) (M := 128) (Cert.Gcn.mm (N := 50000) (K := 128) (M := 128) (V c main_arg0) (V c main_arg2)) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨-, -, -, -, -, e0, e1⟩ := idx0 t
  funext j
  refine Cert.Gcn.mmb_block (M := 128) (k0_pay1 (iblk0 V c 0 t) (iblk0 V c 1 t) (iblk0 V c 2 t)) (iblk0 V c 0 t) (iblk0 V c 1 t)
    (V c main_arg2) (iblk0 V c 2 t) (V c main_arg3) (V c main_arg0) t.val (k0_pay1_apply (iblk0 V c 0 t) (iblk0 V c 1 t) (iblk0 V c 2 t))
    (fun a b hb0 hb1 => iblk0_0_apply V c t a b hb0 hb1) (iblk0_1_eq V c t) (iblk0_2_eq V c t) j (((cfg0.win 3).blk t).view.emb j) ?_ ?_
  · show win0_3.index t 0 * 5000 + 1 * (j 0).val = 5000 * t.val + (j 0).val; rw [e0]; omega
  · show win0_3.index t 1 * 128 + 1 * (j 1).val = (j 1).val; rw [e1]; omega

/-- An index of the output array is in point `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Every row of the output is in the block of the point that is its row number divided by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨-, -, -, -, -, e0, e1⟩ := idx0 ⟨(i 0).val / 5000, by rw [hN]; omega⟩
  refine ⟨⟨(i 0).val / 5000, by rw [hN]; omega⟩, flush0_3 _, ?_⟩
  rw [mem_blk0]
  intro a
  match a with
  | ⟨0, _⟩ =>
    show win0_3.index ⟨(i 0).val / 5000, _⟩ 0 * 5000 ≤ (i 0).val ∧ (i 0).val < win0_3.index ⟨(i 0).val / 5000, _⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, _⟩ 1 * 128 ≤ (i 1).val ∧ (i 1).val < win0_3.index ⟨(i 0).val / 5000, _⟩ 1 * 128 + 128
    rw [e1]; omega

/-- The output array after the region: the whole product of the arrays it found, with the bias row added. -/
theorem final0 (c : Dev nD) : (dat0 V c).arrAt 3 cfg0.N
    = Cert.Gcn.addRow (N := 50000) (M := 128) (Cert.Gcn.mm (N := 50000) (K := 128) (M := 128) (V c main_arg0) (V c main_arg2)) (V c main_arg3) :=
  (dat0 V c).arrAt_eq_of_cover 3 _ (fun t _ => flushed0_eq V c t) (cover0)

end Cert.KernelIdeal.Hand

end
-- ==== Proof.Reg1.lean ====
/-
  Region 1 as one whole-array function. It stores, block by block, the product of the rows of `main_v32` with the weight matrix `main_v34` (its third operand, a zero bias, is never read).
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the tall input and the output move with the point along the rows, the
    weight's one block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- The tall input's block at point `t` is rows `5000·t …` of the array the region found. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v32 : S50000x128.Idx → EReal) k := by
  obtain ⟨e0, e1, -⟩ := idx1 t
  unfold iblk1
  rw [View.read_apply]
  show (V c main_v32 : S50000x128.Idx → EReal) _ = (V c main_v32 : S50000x128.Idx → EReal) _
  refine congrArg (V c main_v32 : S50000x128.Idx → EReal) (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The weight's block at every point is the whole weight matrix. -/
theorem iblk1_1_eq (c : Dev nD) (t : Fin cfg1.N) :
    (iblk1 V c 1 t : Vec Ideal S128x128 .f32) = (V c main_v34 : S128x128.Idx → EReal) := by
  obtain ⟨-, -, e0, e1, -⟩ := idx1 t
  funext x
  unfold iblk1
  rw [View.read_apply]
  show (V c main_v34 : S128x128.Idx → EReal) _ = (V c main_v34 : S128x128.Idx → EReal) _
  refine congrArg (V c main_v34 : S128x128.Idx → EReal) (funext fun a => Fin.ext ?_)
  match a with
  | ⟨0, _⟩ => show win1_1.index t 0 * 128 + 1 * (x 0).val = (x 0).val; rw [e0]; omega
  | ⟨1, _⟩ => show win1_1.index t 1 * 128 + 1 * (x 1).val = (x 1).val; rw [e1]; omega

/-- What point `t` writes back is block `t` of the whole product. -/
theorem flushed1_eq (c : Dev nD) (t : Fin cfg1.N) :
    (dat1 V c).flushed 3 t = ((cfg1.win 3).blk t).view.read (Elt Ideal)
      (Cert.Gcn.mm (N := 50000) (K := 128) (M := 128) (V c main_v32) (V c main_v34)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2]
  obtain ⟨-, -, -, -, e0, e1⟩ := idx1 t
  funext j
  refine Cert.Gcn.mm_block (M := 128) (k1_pay1 (iblk1 V c 0 t) (iblk1 V c 1 t)) (iblk1 V c 0 t) (iblk1 V c 1 t)
    (V c main_v34) (V c main_v32) t.val (k1_pay1_apply (iblk1 V c 0 t) (iblk1 V c 1 t))
    (fun a b hb0 hb1 => iblk1_0_apply V c t a b hb0 hb1) (iblk1_1_eq V c t) j (((cfg1.win 3).blk t).view.emb j) ?_ ?_
  · show win1_3.index t 0 * 5000 + 1 * (j 0).val = 5000 * t.val + (j 0).val; rw [e0]; omega
  · show win1_3.index t 1 * 128 + 1 * (j 1).val = (j 1).val; rw [e1]; omega

/-- An index of the output array is in point `t`'s block iff each coordinate is in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36).slice (win1_3.rect t)).set ↔ _
  rw [View.set_slice_whole, Rect.mem_set_unit]
  exact Iff.rfl

/-- Every row of the output is in the block of the point that is its row number divided by 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨-, -, -, -, e0, e1⟩ := idx1 ⟨(i 0).val / 5000, by rw [hN]; omega⟩
  refine ⟨⟨(i 0).val / 5000, by rw [hN]; omega⟩, flush1_3 _, ?_⟩
  rw [mem_blk1]
  intro a
  match a with
  | ⟨0, _⟩ =>
    show win1_3.index ⟨(i 0).val / 5000, _⟩ 0 * 5000 ≤ (i 0).val ∧ (i 0).val < win1_3.index ⟨(i 0).val / 5000, _⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, _⟩ 1 * 128 ≤ (i 1).val ∧ (i 1).val < win1_3.index ⟨(i 0).val / 5000, _⟩ 1 * 128 + 128
    rw [e1]; omega

/-- The output array after the region: the whole product of the arrays it found. -/
theorem final1 (c : Dev nD) : (dat1 V c).arrAt 3 cfg1.N
    = Cert.Gcn.mm (N := 50000) (K := 128) (M := 128) (V c main_v32) (V c main_v34) :=
  (dat1 V c).arrAt_eq_of_cover 3 _ (fun t _ => flushed1_eq V c t) (cover1)

end Cert.KernelIdeal.Hand

end
-- ==== Proof.Reg2.lean ====
/-
  Region 2 as one whole-array function. It stores, block by block, the rows of `main_v49` with the bias row `main_v51` added, rectified.
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the input and the output move with the point along the rows, the bias's
    one block stays. -/
theorem idx2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The input's block at point `t` is rows `5000·t …` of the array the region found. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v49 : S50000x128.Idx → EReal) k := by
  obtain ⟨e0, e1, -⟩ := idx2 t
  unfold iblk2
  rw [View.read_apply]
  show (V c main_v49 : S50000x128.Idx → EReal) _ = (V c main_v49 : S50000x128.Idx → EReal) _
  refine congrArg (V c main_v49 : S50000x128.Idx → EReal) (funext fun a => Fin.ext ?_)
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The bias's block at every point is the whole bias vector. -/
theorem iblk2_1_eq (c : Dev nD) (t : Fin cfg2.N) :
    (iblk2 V c 1 t : Vec Ideal S128 .f32) = (V c main_v51 : S128.Idx → EReal) := by
  obtain ⟨-, -, e0, -⟩ := idx2 t
  funext x
  unfold iblk2
  rw [View.read_apply]
  show (V c main_v51 : S128.Idx → EReal) _ = (V c main_v51 : S128.Idx → EReal) _
  refine congrArg (V c main_v51 : S128.Idx → EReal) (funext fun a => Fin.ext ?_)
  match a with
  | ⟨0, _⟩ => show win2_1.index t 0 * 128 + 1 * (x 0).val = (x 0).val; rw [e0]; omega

/-- What point `t` writes back is block `t` of the biased, rectified array. -/
theorem flushed2_eq (c : Dev nD) (t : Fin cfg2.N) :
    (dat2 V c).flushed 2 t = ((cfg2.win 2).blk t).view.read (Elt Ideal)
      (Cert.Gcn.relu (N := 50000) (M := 128) (Cert.Gcn.addRow (N := 50000) (M := 128) (V c main_v49) (V c main_v51))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128) hz1]
  obtain ⟨-, -, -, e0, e1⟩ := idx2 t
  funext j
  refine Cert.Gcn.brelu_block (k2_pay1 (iblk2 V c 0 t) (iblk2 V c 1 t)) (iblk2 V c 0 t) (iblk2 V c 1 t)
    (V c main_v51) (V c main_v49) t.val (k2_pay1_apply (iblk2 V c 0 t) (iblk2 V c 1 t))
    (fun a b hb0 hb1 => iblk2_0_apply V c t a b hb0 hb1) (iblk2_1_eq V c t) j (((cfg2.win 2).blk t).view.emb j) ?_ ?_
  · show win2_2.index t 0 * 5000 + 1 * (j 0).val = 5000 * t.val + (j 0).val; rw [e0]; omega
  · show win2_2.index t 1 * 128 + 1 * (j 1).val = (j 1).val; rw [e1]; omega

/-- An index of the output array is in point `t`'s block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Every row of the output is in the block of the point that is its row number divided by 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨-, -, -, e0, e1⟩ := idx2 ⟨(i 0).val / 5000, by rw [hN]; omega⟩
  refine ⟨⟨(i 0).val / 5000, by rw [hN]; omega⟩, flush2_2 _, ?_⟩
  rw [mem_blk2]
  intro a
  match a with
  | ⟨0, _⟩ =>
    show win2_2.index ⟨(i 0).val / 5000, _⟩ 0 * 5000 ≤ (i 0).val ∧ (i 0).val < win2_2.index ⟨(i 0).val / 5000, _⟩ 0 * 5000 + 5000
    rw [e0]; show (i 0).val / 5000 * 5000 ≤ (i 0).val ∧ (i 0).val < (i 0).val / 5000 * 5000 + 5000; omega
  | ⟨1, _⟩ =>
    show win2_2.index ⟨(i 0).val / 5000, _⟩ 1 * 128 ≤ (i 1).val ∧ (i 1).val < win2_2.index ⟨(i 0).val / 5000, _⟩ 1 * 128 + 128
    rw [e1]; omega

/-- The output array after the region: the array it found with the bias row added, rectified. -/
theorem final2 (c : Dev nD) : (dat2 V c).arrAt 2 cfg2.N
    = Cert.Gcn.relu (N := 50000) (M := 128) (Cert.Gcn.addRow (N := 50000) (M := 128) (V c main_v49) (V c main_v51)) :=
  (dat2 V c).arrAt_eq_of_cover 2 _ (fun t _ => flushed2_eq V c t) (cover2)

end Cert.KernelIdeal.Hand

end
-- ==== Proof.Reg3.lean ====
/-
  Region 3 as one whole-array function. It stores, block by block, the product of the rows of `main_v52` with the weight matrix `main_v54` (its third operand, a zero bias, is never read).
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the tall input and the output move with the point along the rows, the
    weight's one block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_3.index t (0 : Fin 2) = t.val ∧ win3_3.index t (1 : Fin 2) = 0 :=
  (by decide +kernel : ∀ t : Fin grid3.N, _)

/-- The tall input's block at point `t` is rows `5000·t …` of the array the region found. -/
theorem iblk3_0_apply (c : Dev nD) (t : Fin cfg3.N) (x : S5000x128.Idx) (k : S50000x128.Idx)
    (hk0 : (k 0).val = 5000 * t.val + (x 0).val) (hk1 : (k 1).val = (x 1).val) :
    (iblk3 V c 0 t : Vec Ideal S5000x128 .f32) x = (V c main_v52 : S50000x128.Idx → EReal) k := by
  obtain ⟨e0, e1, -⟩ := idx3 t
  unfold iblk3
  rw [View.read_apply]
  show (V c main_v52 : S50000x128.Idx → EReal) _ = (V c main_v52 : S50000x128.Idx → EReal) _
  refine congrArg (V c main_v52 : S50000x128.Idx → EReal) (funext fun a => Fin.ext ?_)
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The weight's block at every point is the whole weight matrix. -/
theorem iblk3_1_eq (c : Dev nD) (t : Fin cfg3.N) :
    (iblk3 V c 1 t : Vec Ideal S128x128 .f32) = (V c main_v54 : S128x128.Idx → EReal) := by
  obtain ⟨-, -, e0, e1, -⟩ := idx3 t
  funext x
  unfold iblk3
  rw [View.read_apply]
  show (V c main_v54 : S128x128.Idx → EReal) _ = (V c main_v54 : S128x128.Idx → EReal) _
  refine congrArg (V c main_v54 : S128x128.Idx → EReal) (funext fun a => Fin.ext ?_)
  match a with
  | ⟨0, _⟩ => show win3_1.index t 0 * 128 + 1 * (x 0).val = (x 0).val; rw [e0]; omega
  | ⟨1, _⟩ => show win3_1.index t 1 * 128 + 1 * (x 1).val = (x 1).val; rw [e1]; omega

/-- What point `t` writes back is block `t` of the whole product. -/
theorem flushed3_eq (c : Dev nD) (t : Fin cfg3.N) :
    (dat3 V c).flushed 3 t = ((cfg3.win 3).blk t).view.read (Elt Ideal)
      (Cert.Gcn.mm (N := 50000) (K := 128) (M := 128) (V c main_v52) (V c main_v54)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2]
  obtain ⟨-, -, -, -, e0, e1⟩ := idx3 t
  funext j
  refine Cert.Gcn.mm_block (M := 128) (k3_pay1 (iblk3 V c 0 t) (iblk3 V c 1 t)) (iblk3 V c 0 t) (iblk3 V c 1 t)
    (V c main_v54) (V c main_v52) t.val (k3_pay1_apply (iblk3 V c 0 t) (iblk3 V c 1 t))
    (fun a b hb0 hb1 => iblk3_0_apply V c t a b hb0 hb1) (iblk3_1_eq V c t) j (((cfg3.win 3).blk t).view.emb j) ?_ ?_
  · show win3_3.index t 0 * 5000 + 1 * (j 0).val = 5000 * t.val + (j 0).val; rw [e0]; omega
  · show win3_3.index t 1 * 128 + 1 * (j 1).val = (j 1).val; rw [e1]; omega

/-- An index of the output array is in point `t`'s block iff each coordinate is in the block's range. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v56).slice (win3_3.rect t)).set ↔ _
  rw [View.set_slice_whole, Rect.mem_set_unit]
  exact Iff.rfl

/-- Every row of the output is in the block of the point that is its row number divided by 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨-, -, -, -, e0, e1⟩ := idx3 ⟨(i 0).val / 5000, by rw [hN]; omega⟩
  refine ⟨⟨(i 0).val / 5000, by rw [hN]; omega⟩, flush3_3 _, ?_⟩
  rw [mem_blk3]
  intro a
  match a with
  | ⟨0, _⟩ =>
    show win3_3.index ⟨(i 0).val / 5000, _⟩ 0 * 5000 ≤ (i 0).val ∧ (i 0).val < win3_3.index ⟨(i 0).val / 5000, _⟩ 0 * 5000 + 5000
    rw [e0]; show (i 0).val / 5000 * 5000 ≤ (i 0).val ∧ (i 0).val < (i 0).val / 5000 * 5000 + 5000; omega
  | ⟨1, _⟩ =>
    show win3_3.index ⟨(i 0).val / 5000, _⟩ 1 * 128 ≤ (i 1).val ∧ (i 1).val < win3_3.index ⟨(i 0).val / 5000, _⟩ 1 * 128 + 128
    rw [e1]; omega

/-- The output array after the region: the whole product of the arrays it found. -/
theorem final3 (c : Dev nD) : (dat3 V c).arrAt 3 cfg3.N
    = Cert.Gcn.mm (N := 50000) (K := 128) (M := 128) (V c main_v52) (V c main_v54) :=
  (dat3 V c).arrAt_eq_of_cover 3 _ (fun t _ => flushed3_eq V c t) (cover3)

end Cert.KernelIdeal.Hand

end
-- ==== Proof.Reg4.lean ====
/-
  Region 4 as one whole-array function. It stores, block by block, the rows of `main_v69` with the bias row `main_v71` added, rectified.
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the input and the output move with the point along the rows, the bias's
    one block stays. -/
theorem idx4 : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- The input's block at point `t` is rows `5000·t …` of the array the region found. -/
theorem iblk4_0_apply (c : Dev nD) (t : Fin cfg4.N) (x : S5000x128.Idx) (k : S50000x128.Idx)
    (hk0 : (k 0).val = 5000 * t.val + (x 0).val) (hk1 : (k 1).val = (x 1).val) :
    (iblk4 V c 0 t : Vec Ideal S5000x128 .f32) x = (V c main_v69 : S50000x128.Idx → EReal) k := by
  obtain ⟨e0, e1, -⟩ := idx4 t
  unfold iblk4
  rw [View.read_apply]
  show (V c main_v69 : S50000x128.Idx → EReal) _ = (V c main_v69 : S50000x128.Idx → EReal) _
  refine congrArg (V c main_v69 : S50000x128.Idx → EReal) (funext fun a => Fin.ext ?_)
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- The bias's block at every point is the whole bias vector. -/
theorem iblk4_1_eq (c : Dev nD) (t : Fin cfg4.N) :
    (iblk4 V c 1 t : Vec Ideal S128 .f32) = (V c main_v71 : S128.Idx → EReal) := by
  obtain ⟨-, -, e0, -⟩ := idx4 t
  funext x
  unfold iblk4
  rw [View.read_apply]
  show (V c main_v71 : S128.Idx → EReal) _ = (V c main_v71 : S128.Idx → EReal) _
  refine congrArg (V c main_v71 : S128.Idx → EReal) (funext fun a => Fin.ext ?_)
  match a with
  | ⟨0, _⟩ => show win4_1.index t 0 * 128 + 1 * (x 0).val = (x 0).val; rw [e0]; omega

/-- What point `t` writes back is block `t` of the biased, rectified array. -/
theorem flushed4_eq (c : Dev nD) (t : Fin cfg4.N) :
    (dat4 V c).flushed 2 t = ((cfg4.win 2).blk t).view.read (Elt Ideal)
      (Cert.Gcn.relu (N := 50000) (M := 128) (Cert.Gcn.addRow (N := 50000) (M := 128) (V c main_v69) (V c main_v71))) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S128) hz1]
  obtain ⟨-, -, -, e0, e1⟩ := idx4 t
  funext j
  refine Cert.Gcn.brelu_block (k4_pay1 (iblk4 V c 0 t) (iblk4 V c 1 t)) (iblk4 V c 0 t) (iblk4 V c 1 t)
    (V c main_v71) (V c main_v69) t.val (k4_pay1_apply (iblk4 V c 0 t) (iblk4 V c 1 t))
    (fun a b hb0 hb1 => iblk4_0_apply V c t a b hb0 hb1) (iblk4_1_eq V c t) j (((cfg4.win 2).blk t).view.emb j) ?_ ?_
  · show win4_2.index t 0 * 5000 + 1 * (j 0).val = 5000 * t.val + (j 0).val; rw [e0]; omega
  · show win4_2.index t 1 * 128 + 1 * (j 1).val = (j 1).val; rw [e1]; omega

/-- An index of the output array is in point `t`'s block iff each coordinate is in the block's range. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v72).slice (win4_2.rect t)).set ↔ _
  rw [View.set_slice_whole, Rect.mem_set_unit]
  exact Iff.rfl

/-- Every row of the output is in the block of the point that is its row number divided by 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨-, -, -, e0, e1⟩ := idx4 ⟨(i 0).val / 5000, by rw [hN]; omega⟩
  refine ⟨⟨(i 0).val / 5000, by rw [hN]; omega⟩, flush4_2 _, ?_⟩
  rw [mem_blk4]
  intro a
  match a with
  | ⟨0, _⟩ =>
    show win4_2.index ⟨(i 0).val / 5000, _⟩ 0 * 5000 ≤ (i 0).val ∧ (i 0).val < win4_2.index ⟨(i 0).val / 5000, _⟩ 0 * 5000 + 5000
    rw [e0]; show (i 0).val / 5000 * 5000 ≤ (i 0).val ∧ (i 0).val < (i 0).val / 5000 * 5000 + 5000; omega
  | ⟨1, _⟩ =>
    show win4_2.index ⟨(i 0).val / 5000, _⟩ 1 * 128 ≤ (i 1).val ∧ (i 1).val < win4_2.index ⟨(i 0).val / 5000, _⟩ 1 * 128 + 128
    rw [e1]; omega

/-- The output array after the region: the array it found with the bias row added, rectified. -/
theorem final4 (c : Dev nD) : (dat4 V c).arrAt 2 cfg4.N
    = Cert.Gcn.relu (N := 50000) (M := 128) (Cert.Gcn.addRow (N := 50000) (M := 128) (V c main_v69) (V c main_v71)) :=
  (dat4 V c).arrAt_eq_of_cover 2 _ (fun t _ => flushed4_eq V c t) (cover4)

end Cert.KernelIdeal.Hand

end
-- ==== Proof.Reg5.lean ====
/-
  Region 5 as one whole-array function. It stores, block by block, the product of the rows of `main_v72` with the weight matrix `main_v74` (its third operand, a zero bias, is never read).
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the tall input and the output move with the point along the rows, the
    weight's one block stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_3.index t (0 : Fin 2) = t.val ∧ win5_3.index t (1 : Fin 2) = 0 :=
  (by decide +kernel : ∀ t : Fin grid5.N, _)

/-- The tall input's block at point `t` is rows `5000·t …` of the array the region found. -/
theorem iblk5_0_apply (c : Dev nD) (t : Fin cfg5.N) (x : S5000x128.Idx) (k : S50000x128.Idx)
    (hk0 : (k 0).val = 5000 * t.val + (x 0).val) (hk1 : (k 1).val = (x 1).val) :
    (iblk5 V c 0 t : Vec Ideal S5000x128 .f32) x = (V c main_v72 : S50000x128.Idx → EReal) k := by
  obtain ⟨e0, e1, -⟩ := idx5 t
  unfold iblk5
  rw [View.read_apply]
  show (V c main_v72 : S50000x128.Idx → EReal) _ = (V c main_v72 : S50000x128.Idx → EReal) _
  refine congrArg (V c main_v72 : S50000x128.Idx → EReal) (funext fun a => Fin.ext ?_)
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

/-- The weight's block at every point is the whole weight matrix. -/
theorem iblk5_1_eq (c : Dev nD) (t : Fin cfg5.N) :
    (iblk5 V c 1 t : Vec Ideal S128x128 .f32) = (V c main_v74 : S128x128.Idx → EReal) := by
  obtain ⟨-, -, e0, e1, -⟩ := idx5 t
  funext x
  unfold iblk5
  rw [View.read_apply]
  show (V c main_v74 : S128x128.Idx → EReal) _ = (V c main_v74 : S128x128.Idx → EReal) _
  refine congrArg (V c main_v74 : S128x128.Idx → EReal) (funext fun a => Fin.ext ?_)
  match a with
  | ⟨0, _⟩ => show win5_1.index t 0 * 128 + 1 * (x 0).val = (x 0).val; rw [e0]; omega
  | ⟨1, _⟩ => show win5_1.index t 1 * 128 + 1 * (x 1).val = (x 1).val; rw [e1]; omega

/-- What point `t` writes back is block `t` of the whole product. -/
theorem flushed5_eq (c : Dev nD) (t : Fin cfg5.N) :
    (dat5 V c).flushed 3 t = ((cfg5.win 3).blk t).view.read (Elt Ideal)
      (Cert.Gcn.mm (N := 50000) (K := 128) (M := 128) (V c main_v72) (V c main_v74)) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x128) hz2]
  obtain ⟨-, -, -, -, e0, e1⟩ := idx5 t
  funext j
  refine Cert.Gcn.mm_block (M := 128) (k5_pay1 (iblk5 V c 0 t) (iblk5 V c 1 t)) (iblk5 V c 0 t) (iblk5 V c 1 t)
    (V c main_v74) (V c main_v72) t.val (k5_pay1_apply (iblk5 V c 0 t) (iblk5 V c 1 t))
    (fun a b hb0 hb1 => iblk5_0_apply V c t a b hb0 hb1) (iblk5_1_eq V c t) j (((cfg5.win 3).blk t).view.emb j) ?_ ?_
  · show win5_3.index t 0 * 5000 + 1 * (j 0).val = 5000 * t.val + (j 0).val; rw [e0]; omega
  · show win5_3.index t 1 * 128 + 1 * (j 1).val = (j 1).val; rw [e1]; omega

/-- An index of the output array is in point `t`'s block iff each coordinate is in the block's range. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v76).slice (win5_3.rect t)).set ↔ _
  rw [View.set_slice_whole, Rect.mem_set_unit]
  exact Iff.rfl

/-- Every row of the output is in the block of the point that is its row number divided by 5000. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  obtain ⟨-, -, -, -, e0, e1⟩ := idx5 ⟨(i 0).val / 5000, by rw [hN]; omega⟩
  refine ⟨⟨(i 0).val / 5000, by rw [hN]; omega⟩, flush5_3 _, ?_⟩
  rw [mem_blk5]
  intro a
  match a with
  | ⟨0, _⟩ =>
    show win5_3.index ⟨(i 0).val / 5000, _⟩ 0 * 5000 ≤ (i 0).val ∧ (i 0).val < win5_3.index ⟨(i 0).val / 5000, _⟩ 0 * 5000 + 5000
    rw [e0]; show (i 0).val / 5000 * 5000 ≤ (i 0).val ∧ (i 0).val < (i 0).val / 5000 * 5000 + 5000; omega
  | ⟨1, _⟩ =>
    show win5_3.index ⟨(i 0).val / 5000, _⟩ 1 * 128 ≤ (i 1).val ∧ (i 1).val < win5_3.index ⟨(i 0).val / 5000, _⟩ 1 * 128 + 128
    rw [e1]; omega

/-- The output array after the region: the whole product of the arrays it found. -/
theorem final5 (c : Dev nD) : (dat5 V c).arrAt 3 cfg5.N
    = Cert.Gcn.mm (N := 50000) (K := 128) (M := 128) (V c main_v72) (V c main_v74) :=
  (dat5 V c).arrAt_eq_of_cover 3 _ (fun t _ => flushed5_eq V c t) (cover5)

end Cert.KernelIdeal.Hand

end
-- ==== Proof.Reg6.lean ====
/-
  Region 6 as one whole-array function. It stores, block by block, the rows of `main_v89` with the bias row `main_v91` added, rectified.
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the input and the output move with the point along the rows, the bias's
    one block stays. -/
theorem idx6 : ∀ t : Fin cfg6.N, win6_0.index t (0 : Fin 2) = t.val ∧ win6_0.index t (1 : Fin 2) = 0
    ∧ win6_1.index t (0 : Fin 1) = 0
    ∧ win6_2.index t (0 : Fin 2) = t.val ∧ win6_2.index t (1 : Fin 2) = 0 :=
  (by decide +kernel : ∀ t : Fin grid6.N, _)

/-- The input's block at point `t` is rows `5000·t …` of the array the region found. -/
theorem iblk6_0_apply (c : Dev nD) (t : Fin cfg6.N) (x : S5000x128.Idx) (k : S50000x128.Idx)
    (hk0 : (k 0).val = 5000 * t.val + (x 0).val) (hk1 : (k 1).val = (x 1).val) :
    (iblk6 V c 0 t : Vec Ideal S5000x128 .f32) x = (V c main_v89 : S50000x128.Idx → EReal) k := by
  obtain ⟨e0, e1, -⟩ := idx6 t
  unfold iblk6
  rw [View.read_apply]
  show (V c main_v89 : S50000x128.Idx → EReal) _ = (V c main_v89 : S50000x128.Idx → EReal) _
  refine congrArg (V c main_v89 : S50000x128.Idx → EReal) (funext fun a => Fin.ext ?_)
  match a with
  | ⟨0, _⟩ => show win6_0.index t 0 * 5000 + 1 * (x 0).val = (k 0).val; rw [e0, hk0]; omega
  | ⟨1, _⟩ => show win6_0.index t 1 * 128 + 1 * (x 1).val = (k 1).val; rw [e1, hk1]; omega

/-- The bias's block at every point is the whole bias vector. -/
theorem iblk6_1_eq (c : Dev nD) (t : Fin cfg6.N) :
    (iblk6 V c 1 t : Vec Ideal S128 .f32) = (V c main_v91 : S128.Idx → EReal) := by
  obtain ⟨-, -, e0, -⟩ := idx6 t
  funext x
  unfold iblk6
  rw [View.read_apply]
  show (V c main_v91 : S128.Idx → EReal) _ = (V c main_v91 : S128.Idx → EReal) _
  refine congrArg (V c main_v91 : S128.Idx → EReal) (funext fun a => Fin.ext ?_)
  match a with
  | ⟨0, _⟩ => show win6_1.index t 0 * 128 + 1 * (x 0).val = (x 0).val; rw [e0]; omega

/-- What point `t` writes back is block `t` of the biased, rectified array. -/
theorem flushed6_eq (c : Dev nD) (t : Fin cfg6.N) :
    (dat6 V c).flushed 2 t = ((cfg6.win 2).blk t).view.read (Elt Ideal)
      (Cert.Gcn.relu (N := 50000) (M := 128) (Cert.Gcn.addRow (N := 50000) (M := 128) (V c main_v89) (V c main_v91))) := by
  show (cfg6.win 2).cut (grid6.coords t) ((dat6 V c).after 2 t) = _
  rw [after6_2]
  unfold out6_2
  rw [View.canon_unit_zero hz2]
  simp only [View.ld_unit_zero (S := S5000x128) hz2, View.ld_unit_zero (S := S128) hz1]
  obtain ⟨-, -, -, e0, e1⟩ := idx6 t
  funext j
  refine Cert.Gcn.brelu_block (k6_pay1 (iblk6 V c 0 t) (iblk6 V c 1 t)) (iblk6 V c 0 t) (iblk6 V c 1 t)
    (V c main_v91) (V c main_v89) t.val (k6_pay1_apply (iblk6 V c 0 t) (iblk6 V c 1 t))
    (fun a b hb0 hb1 => iblk6_0_apply V c t a b hb0 hb1) (iblk6_1_eq V c t) j (((cfg6.win 2).blk t).view.emb j) ?_ ?_
  · show win6_2.index t 0 * 5000 + 1 * (j 0).val = 5000 * t.val + (j 0).val; rw [e0]; omega
  · show win6_2.index t 1 * 128 + 1 * (j 1).val = (j 1).val; rw [e1]; omega

/-- An index of the output array is in point `t`'s block iff each coordinate is in the block's range. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v92).slice (win6_2.rect t)).set ↔ _
  rw [View.set_slice_whole, Rect.mem_set_unit]
  exact Iff.rfl

/-- Every row of the output is in the block of the point that is its row number divided by 5000. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨-, -, -, e0, e1⟩ := idx6 ⟨(i 0).val / 5000, by rw [hN]; omega⟩
  refine ⟨⟨(i 0).val / 5000, by rw [hN]; omega⟩, flush6_2 _, ?_⟩
  rw [mem_blk6]
  intro a
  match a with
  | ⟨0, _⟩ =>
    show win6_2.index ⟨(i 0).val / 5000, _⟩ 0 * 5000 ≤ (i 0).val ∧ (i 0).val < win6_2.index ⟨(i 0).val / 5000, _⟩ 0 * 5000 + 5000
    rw [e0]; show (i 0).val / 5000 * 5000 ≤ (i 0).val ∧ (i 0).val < (i 0).val / 5000 * 5000 + 5000; omega
  | ⟨1, _⟩ =>
    show win6_2.index ⟨(i 0).val / 5000, _⟩ 1 * 128 ≤ (i 1).val ∧ (i 1).val < win6_2.index ⟨(i 0).val / 5000, _⟩ 1 * 128 + 128
    rw [e1]; omega

/-- The output array after the region: the array it found with the bias row added, rectified. -/
theorem final6 (c : Dev nD) : (dat6 V c).arrAt 2 cfg6.N
    = Cert.Gcn.relu (N := 50000) (M := 128) (Cert.Gcn.addRow (N := 50000) (M := 128) (V c main_v89) (V c main_v91)) :=
  (dat6 V c).arrAt_eq_of_cover 2 _ (fun t _ => flushed6_eq V c t) (cover6)

end Cert.KernelIdeal.Hand

end
-- ==== Proof.Reg7.lean ====
/-
  Region 7 as one whole-array function. It stores, block by block, the product of the rows of `main_v92` with the weight matrix `main_arg6`, plus the bias row `main_arg7`.
  The region runs over ten grid points; point `t` reads rows `5000·t … 5000·t + 4999` of its tall input (the
  other inputs whole), and writes the same rows of its output, so the ten write-backs tile the output array and
  it ends holding the whole-array function of the arrays the region found at its entry.
-/
import proofs.«151434_j40080634806825_1_alg».proof.Proof.Gen.KernelIdeal.Frame
import proofs.«151434_j40080634806825_1_alg».proof.Proof.Pay
import proofs.«151434_j40080634806825_1_alg».proof.Proof.Block
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps over the grid: the tall input and the output move with the point along the rows, the
    weight's and the bias's one block stay. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

/-- The tall input's block at point `t` is rows `5000·t …` of the array the region found. -/
theorem iblk7_0_apply (c : Dev nD) (t : Fin cfg7.N) (x : S5000x128.Idx) (k : S50000x128.Idx)
    (hk0 : (k 0).val = 5000 * t.val + (x 0).val) (hk1 : (k 1).val = (x 1).val) :
    (iblk7 V c 0 t : Vec Ideal S5000x128 .f32) x = (V c main_v92 : S50000x128.Idx → EReal) k := by
  obtain ⟨e0, e1, -⟩ := idx7 t
  unfold iblk7
  rw [View.read_apply]
  show (V c main_v92 : S50000x128.Idx → EReal) _ = (V c main_v92 : S50000x128.Idx → EReal) _
  refine congrArg (V c main_v92 : S50000x128.Idx → EReal) (funext fun a => Fin.ext ?_)
  match a with
  | ⟨0, _⟩ => show win7_0.index t 0 * 5000 + 1 * (x 0).val = (k 0).val; rw [e0, hk0]; omega
  | ⟨1, _⟩ => show win7_0.index t 1 * 128 + 1 * (x 1).val = (k 1).val; rw [e1, hk1]; omega

/-- The weight's block at every point is the whole weight matrix. -/
theorem iblk7_1_eq (c : Dev nD) (t : Fin cfg7.N) :
    (iblk7 V c 1 t : Vec Ideal S128x64 .f32) = (V c main_arg6 : S128x64.Idx → EReal) := by
  obtain ⟨-, -, e0, e1, -⟩ := idx7 t
  funext x
  unfold iblk7
  rw [View.read_apply]
  show (V c main_arg6 : S128x64.Idx → EReal) _ = (V c main_arg6 : S128x64.Idx → EReal) _
  refine congrArg (V c main_arg6 : S128x64.Idx → EReal) (funext fun a => Fin.ext ?_)
  match a with
  | ⟨0, _⟩ => show win7_1.index t 0 * 128 + 1 * (x 0).val = (x 0).val; rw [e0]; omega
  | ⟨1, _⟩ => show win7_1.index t 1 * 64 + 1 * (x 1).val = (x 1).val; rw [e1]; omega

/-- The bias's block at every point is the whole bias vector. -/
theorem iblk7_2_eq (c : Dev nD) (t : Fin cfg7.N) :
    (iblk7 V c 2 t : Vec Ideal S64 .f32) = (V c main_arg7 : S64.Idx → EReal) := by
  obtain ⟨-, -, -, -, e0, -⟩ := idx7 t
  funext x
  unfold iblk7
  rw [View.read_apply]
  show (V c main_arg7 : S64.Idx → EReal) _ = (V c main_arg7 : S64.Idx → EReal) _
  refine congrArg (V c main_arg7 : S64.Idx → EReal) (funext fun a => Fin.ext ?_)
  match a with
  | ⟨0, _⟩ => show win7_2.index t 0 * 64 + 1 * (x 0).val = (x 0).val; rw [e0]; omega

/-- What point `t` writes back is block `t` of the whole product with the bias row added. -/
theorem flushed7_eq (c : Dev nD) (t : Fin cfg7.N) :
    (dat7 V c).flushed 3 t = ((cfg7.win 3).blk t).view.read (Elt Ideal)
      (Cert.Gcn.addRow (N := 50000) (M := 64) (Cert.Gcn.mm (N := 50000) (K := 128) (M := 64) (V c main_v92) (V c main_arg6)) (V c main_arg7)) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S128x64) hz2, View.ld_unit_zero (S := S64) hz1]
  obtain ⟨-, -, -, -, -, e0, e1⟩ := idx7 t
  funext j
  refine Cert.Gcn.mmb_block (M := 64) (k7_pay1 (iblk7 V c 0 t) (iblk7 V c 1 t) (iblk7 V c 2 t)) (iblk7 V c 0 t) (iblk7 V c 1 t)
    (V c main_arg6) (iblk7 V c 2 t) (V c main_arg7) (V c main_v92) t.val (k7_pay1_apply (iblk7 V c 0 t) (iblk7 V c 1 t) (iblk7 V c 2 t))
    (fun a b hb0 hb1 => iblk7_0_apply V c t a b hb0 hb1) (iblk7_1_eq V c t) (iblk7_2_eq V c t) j (((cfg7.win 3).blk t).view.emb j) ?_ ?_
  · show win7_3.index t 0 * 5000 + 1 * (j 0).val = 5000 * t.val + (j 0).val; rw [e0]; omega
  · show win7_3.index t 1 * 64 + 1 * (j 1).val = (j 1).val; rw [e1]; omega

/-- An index of the output array is in point `t`'s block iff each coordinate is in the block's range. -/
theorem mem_blk7 (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v93).slice (win7_3.rect t)).set ↔ _
  rw [View.set_slice_whole, Rect.mem_set_unit]
  exact Iff.rfl

/-- Every row of the output is in the block of the point that is its row number divided by 5000. -/
theorem cover7 (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : cfg7.N = 10 := N_7
  obtain ⟨-, -, -, -, -, e0, e1⟩ := idx7 ⟨(i 0).val / 5000, by rw [hN]; omega⟩
  refine ⟨⟨(i 0).val / 5000, by rw [hN]; omega⟩, flush7_3 _, ?_⟩
  rw [mem_blk7]
  intro a
  match a with
  | ⟨0, _⟩ =>
    show win7_3.index ⟨(i 0).val / 5000, _⟩ 0 * 5000 ≤ (i 0).val ∧ (i 0).val < win7_3.index ⟨(i 0).val / 5000, _⟩ 0 * 5000 + 5000
    rw [e0]; show (i 0).val / 5000 * 5000 ≤ (i 0).val ∧ (i 0).val < (i 0).val / 5000 * 5000 + 5000; omega
  | ⟨1, _⟩ =>
    show win7_3.index ⟨(i 0).val / 5000, _⟩ 1 * 64 ≤ (i 1).val ∧ (i 1).val < win7_3.index ⟨(i 0).val / 5000, _⟩ 1 * 64 + 64
    rw [e1]; omega

/-- The output array after the region: the whole product of the arrays it found, with the bias row added. -/
theorem final7 (c : Dev nD) : (dat7 V c).arrAt 3 cfg7.N
    = Cert.Gcn.addRow (N := 50000) (M := 64) (Cert.Gcn.mm (N := 50000) (K := 128) (M := 64) (V c main_v92) (V c main_arg6)) (V c main_arg7) :=
  (dat7 V c).arrAt_eq_of_cover 3 _ (fun t _ => flushed7_eq V c t) (cover7)

end Cert.KernelIdeal.Hand

end
-- ==== Proof.Chain.lean ====
/-
  The kernel program's result as the network function of its arguments. The buffer contents at the boundaries
  between the program's segments are followed from the launch to the return: the first stretch of host
  operations computes the messages' ends and weights from the edge list; region 0 leaves the input projection;
  then, three times, a stretch cuts the layer's weight matrix out, a region multiplies the features by it, a
  stretch passes the messages and cuts the bias row out, and a region adds the bias and rectifies; region 7 leaves
  the output projection. At every boundary the ends, the weights and the arguments not yet read are where the
  first stretch and the launch left them.
-/
import proofs.«151434_j40080634806825_1_alg».proof.Proof.Gen.KernelIdeal.Frame
import proofs.«151434_j40080634806825_1_alg».proof.Proof.HostOps
import proofs.«151434_j40080634806825_1_alg».proof.Proof.Host0
import proofs.«151434_j40080634806825_1_alg».proof.Proof.Reg0
import proofs.«151434_j40080634806825_1_alg».proof.Proof.Reg1
import proofs.«151434_j40080634806825_1_alg».proof.Proof.Reg2
import proofs.«151434_j40080634806825_1_alg».proof.Proof.Reg3
import proofs.«151434_j40080634806825_1_alg».proof.Proof.Reg4
import proofs.«151434_j40080634806825_1_alg».proof.Proof.Reg5
import proofs.«151434_j40080634806825_1_alg».proof.Proof.Reg6
import proofs.«151434_j40080634806825_1_alg».proof.Proof.Reg7

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-- The eight argument arrays as launched, at the types the network function takes them. -/
abbrev xA : Cert.Gcn.Feat := m ((c : Thread nD τ).loc main_arg0)
abbrev eA : Cert.Gcn.Edges := m ((c : Thread nD τ).loc main_arg1)
abbrev wpA : Cert.Gcn.Wmat := m ((c : Thread nD τ).loc main_arg2)
abbrev bpA : Cert.Gcn.Bvec := m ((c : Thread nD τ).loc main_arg3)
abbrev wcA : Cert.Gcn.Wstack := m ((c : Thread nD τ).loc main_arg4)
abbrev bcA : Cert.Gcn.Bstack := m ((c : Thread nD τ).loc main_arg5)
abbrev woA : Wout := m ((c : Thread nD τ).loc main_arg6)
abbrev boA : Bout := m ((c : Thread nD τ).loc main_arg7)

/-- The features after the input projection and after each layer. -/
abbrev hid : Cert.Gcn.Feat :=
  Cert.Gcn.addRow (N := 50000) (M := 128) (Cert.Gcn.mm (N := 50000) (K := 128) (M := 128) (xA m c) (wpA m c)) (bpA m c)
abbrev L1 : Cert.Gcn.Feat := Cert.Gcn.layer (hid m c) (Cert.Gcn.w0 (wcA m c)) (Cert.Gcn.b0 (bcA m c)) (eA m c)
abbrev L2 : Cert.Gcn.Feat := Cert.Gcn.layer (L1 m c) (Cert.Gcn.w1 (wcA m c)) (Cert.Gcn.b1 (bcA m c)) (eA m c)
abbrev L3 : Cert.Gcn.Feat := Cert.Gcn.layer (L2 m c) (Cert.Gcn.w2 (wcA m c)) (Cert.Gcn.b2 (bcA m c)) (eA m c)

/-! ## The first stretches: the messages' ends and weights; the arguments untouched -/

theorem src3 : W3 m ρ c (Proc.devRef .tc main_v3) = Cert.Gcn.srcOf (eA m c) :=
  (keep02 (W2 m ρ c)).1.trans ((keep01 (W1 m ρ c)).1.trans (host0_src (W0 m ρ c)))

theorem dst3 : W3 m ρ c (Proc.devRef .tc main_v6) = Cert.Gcn.dstOf (eA m c) :=
  (keep02 (W2 m ρ c)).2.1.trans ((keep01 (W1 m ρ c)).2.1.trans (host0_dst (W0 m ρ c)))

/-- The per-node factor after the second stretch. -/
theorem dis2 : W2 m ρ c (Proc.devRef .tc main_v16) = Cert.Gcn.disOf (eA m c) := by
  refine (host01_dis (W1 m ρ c)).trans ?_
  rw [show W1 m ρ c (Proc.devRef .tc main_v12) = Cert.Gcn.posOf (eA m c) from host0_pos (W0 m ρ c),
    show W1 m ρ c (Proc.devRef .tc main_v15) = Cert.Gcn.rsOf (eA m c) from host0_rs (W0 m ρ c),
    show W1 m ρ c (Proc.devRef .tc main_cst_3) = Cert.Gcn.zeroS from host0_z (W0 m ρ c)]
  rfl

theorem nrm3 : W3 m ρ c (Proc.devRef .tc main_v31) = Cert.Gcn.normOf (eA m c) := by
  refine (host02_nrm (W2 m ρ c)).trans ?_
  rw [dis2 m ρ c,
    show W2 m ρ c (Proc.devRef .tc main_v3) = Cert.Gcn.srcOf (eA m c) from (keep01 (W1 m ρ c)).1.trans (host0_src (W0 m ρ c)),
    show W2 m ρ c (Proc.devRef .tc main_v6) = Cert.Gcn.dstOf (eA m c) from (keep01 (W1 m ρ c)).2.1.trans (host0_dst (W0 m ρ c))]
  rfl

/-- An argument array is where the launch left it after the first three stretches. -/
theorem x3 : W3 m ρ c (Proc.devRef .tc main_arg0) = xA m c :=
  (keep02 (W2 m ρ c)).2.2.1.trans ((keep01 (W1 m ρ c)).2.2.1.trans ((keep0 (W0 m ρ c)).1.trans rfl))
theorem wp3 : W3 m ρ c (Proc.devRef .tc main_arg2) = wpA m c :=
  (keep02 (W2 m ρ c)).2.2.2.1.trans ((keep01 (W1 m ρ c)).2.2.2.1.trans ((keep0 (W0 m ρ c)).2.1.trans rfl))
theorem bp3 : W3 m ρ c (Proc.devRef .tc main_arg3) = bpA m c :=
  (keep02 (W2 m ρ c)).2.2.2.2.1.trans ((keep01 (W1 m ρ c)).2.2.2.2.1.trans ((keep0 (W0 m ρ c)).2.2.1.trans rfl))

theorem live3 : Live (eA m c) (wcA m c) (bcA m c) (woA m c) (boA m c) (W3 m ρ c) :=
  ⟨src3 m ρ c, dst3 m ρ c, nrm3 m ρ c,
   (keep02 (W2 m ρ c)).2.2.2.2.2.1.trans ((keep01 (W1 m ρ c)).2.2.2.2.2.1.trans ((keep0 (W0 m ρ c)).2.2.2.1.trans rfl)),
   (keep02 (W2 m ρ c)).2.2.2.2.2.2.1.trans ((keep01 (W1 m ρ c)).2.2.2.2.2.2.1.trans ((keep0 (W0 m ρ c)).2.2.2.2.1.trans rfl)),
   (keep02 (W2 m ρ c)).2.2.2.2.2.2.2.1.trans ((keep01 (W1 m ρ c)).2.2.2.2.2.2.2.1.trans ((keep0 (W0 m ρ c)).2.2.2.2.2.1.trans rfl)),
   (keep02 (W2 m ρ c)).2.2.2.2.2.2.2.2.trans ((keep01 (W1 m ρ c)).2.2.2.2.2.2.2.2.trans ((keep0 (W0 m ρ c)).2.2.2.2.2.2.trans rfl))⟩

/-! ## Region 0: the input projection -/

theorem live4 : Live (eA m c) (wcA m c) (bcA m c) (woA m c) (boA m c) (W4 m ρ c) :=
  ⟨(W4_of_ne m ρ c main_v3 (by decide)).trans (live3 m ρ c).src,
   (W4_of_ne m ρ c main_v6 (by decide)).trans (live3 m ρ c).dst,
   (W4_of_ne m ρ c main_v31 (by decide)).trans (live3 m ρ c).nrm,
   (W4_of_ne m ρ c main_arg4 (by decide)).trans (live3 m ρ c).k4,
   (W4_of_ne m ρ c main_arg5 (by decide)).trans (live3 m ρ c).k5,
   (W4_of_ne m ρ c main_arg6 (by decide)).trans (live3 m ρ c).k6,
   (W4_of_ne m ρ c main_arg7 (by decide)).trans (live3 m ρ c).k7⟩

theorem h4 : W4 m ρ c (Proc.devRef .tc main_v32) = hid m c := by
  refine (W4_arr m ρ c 3).trans ((final0 (V3 m ρ) c).trans ?_)
  show Cert.Gcn.addRow (N := 50000) (M := 128) (Cert.Gcn.mm (N := 50000) (K := 128) (M := 128) (W3 m ρ c (Proc.devRef .tc main_arg0)) (W3 m ρ c (Proc.devRef .tc main_arg2))) (W3 m ρ c (Proc.devRef .tc main_arg3)) = _
  rw [x3, wp3, bp3]

/-! ## Layer 0 -/

theorem live5 : Live (eA m c) (wcA m c) (bcA m c) (woA m c) (boA m c) (W5 m ρ c) :=
  live_host1 (W := W4 m ρ c) (live4 m ρ c)

theorem h5 : W5 m ρ c (Proc.devRef .tc main_v32) = hid m c := (host1_h (W4 m ρ c)).trans (h4 m ρ c)

theorem w5 : W5 m ρ c (Proc.devRef .tc main_v34) = Cert.Gcn.w0 (wcA m c) :=
  (host1_w (W4 m ρ c)).trans (congrArg Cert.Gcn.w0 (live4 m ρ c).k4)

theorem live6 : Live (eA m c) (wcA m c) (bcA m c) (woA m c) (boA m c) (W6 m ρ c) :=
  ⟨(W6_of_ne m ρ c main_v3 (by decide)).trans (live5 m ρ c).src,
   (W6_of_ne m ρ c main_v6 (by decide)).trans (live5 m ρ c).dst,
   (W6_of_ne m ρ c main_v31 (by decide)).trans (live5 m ρ c).nrm,
   (W6_of_ne m ρ c main_arg4 (by decide)).trans (live5 m ρ c).k4,
   (W6_of_ne m ρ c main_arg5 (by decide)).trans (live5 m ρ c).k5,
   (W6_of_ne m ρ c main_arg6 (by decide)).trans (live5 m ρ c).k6,
   (W6_of_ne m ρ c main_arg7 (by decide)).trans (live5 m ρ c).k7⟩

/-- Region 1 leaves the features times the layer's weight matrix. -/
theorem h6 : W6 m ρ c (Proc.devRef .tc main_v36)
    = Cert.Gcn.mm (N := 50000) (K := 128) (M := 128) (hid m c) (Cert.Gcn.w0 (wcA m c)) := by
  refine (W6_arr m ρ c 3).trans ((final1 (V5 m ρ) c).trans ?_)
  show Cert.Gcn.mm (N := 50000) (K := 128) (M := 128) (W5 m ρ c (Proc.devRef .tc main_v32)) (W5 m ρ c (Proc.devRef .tc main_v34)) = _
  rw [h5, w5]

theorem live7 : Live (eA m c) (wcA m c) (bcA m c) (woA m c) (boA m c) (W7 m ρ c) :=
  live_host2 (W := W6 m ρ c) (live6 m ρ c)

theorem g7 : W7 m ρ c (Proc.devRef .tc main_v49)
    = Cert.Gcn.agg (Cert.Gcn.mm (N := 50000) (K := 128) (M := 128) (hid m c) (Cert.Gcn.w0 (wcA m c))) (Cert.Gcn.srcOf (eA m c)) (Cert.Gcn.dstOf (eA m c)) (Cert.Gcn.normOf (eA m c)) := by
  refine (host2_agg (W6 m ρ c)).trans ?_
  rw [h6, (live6 m ρ c).src, (live6 m ρ c).dst, (live6 m ρ c).nrm]

theorem b7 : W7 m ρ c (Proc.devRef .tc main_v51) = Cert.Gcn.b0 (bcA m c) :=
  (host2_b (W6 m ρ c)).trans (congrArg Cert.Gcn.b0 (live6 m ρ c).k5)

theorem live8 : Live (eA m c) (wcA m c) (bcA m c) (woA m c) (boA m c) (W8 m ρ c) :=
  ⟨(W8_of_ne m ρ c main_v3 (by decide)).trans (live7 m ρ c).src,
   (W8_of_ne m ρ c main_v6 (by decide)).trans (live7 m ρ c).dst,
   (W8_of_ne m ρ c main_v31 (by decide)).trans (live7 m ρ c).nrm,
   (W8_of_ne m ρ c main_arg4 (by decide)).trans (live7 m ρ c).k4,
   (W8_of_ne m ρ c main_arg5 (by decide)).trans (live7 m ρ c).k5,
   (W8_of_ne m ρ c main_arg6 (by decide)).trans (live7 m ρ c).k6,
   (W8_of_ne m ρ c main_arg7 (by decide)).trans (live7 m ρ c).k7⟩

/-- Region 2 adds the bias row and rectifies: the layer's output. -/
theorem h8 : W8 m ρ c (Proc.devRef .tc main_v52) = L1 m c := by
  refine (W8_arr m ρ c 2).trans ((final2 (V7 m ρ) c).trans ?_)
  show Cert.Gcn.relu (N := 50000) (M := 128) (Cert.Gcn.addRow (N := 50000) (M := 128) (W7 m ρ c (Proc.devRef .tc main_v49)) (W7 m ρ c (Proc.devRef .tc main_v51))) = _
  rw [g7, b7]
  rfl

/-! ## Layer 1 -/

theorem live9 : Live (eA m c) (wcA m c) (bcA m c) (woA m c) (boA m c) (W9 m ρ c) :=
  live_host3 (W := W8 m ρ c) (live8 m ρ c)

theorem h9 : W9 m ρ c (Proc.devRef .tc main_v52) = L1 m c := (host3_h (W8 m ρ c)).trans (h8 m ρ c)

theorem w9 : W9 m ρ c (Proc.devRef .tc main_v54) = Cert.Gcn.w1 (wcA m c) :=
  (host3_w (W8 m ρ c)).trans (congrArg Cert.Gcn.w1 (live8 m ρ c).k4)

theorem live10 : Live (eA m c) (wcA m c) (bcA m c) (woA m c) (boA m c) (W10 m ρ c) :=
  ⟨(W10_of_ne m ρ c main_v3 (by decide)).trans (live9 m ρ c).src,
   (W10_of_ne m ρ c main_v6 (by decide)).trans (live9 m ρ c).dst,
   (W10_of_ne m ρ c main_v31 (by decide)).trans (live9 m ρ c).nrm,
   (W10_of_ne m ρ c main_arg4 (by decide)).trans (live9 m ρ c).k4,
   (W10_of_ne m ρ c main_arg5 (by decide)).trans (live9 m ρ c).k5,
   (W10_of_ne m ρ c main_arg6 (by decide)).trans (live9 m ρ c).k6,
   (W10_of_ne m ρ c main_arg7 (by decide)).trans (live9 m ρ c).k7⟩

/-- Region 3 leaves the features times the layer's weight matrix. -/
theorem h10 : W10 m ρ c (Proc.devRef .tc main_v56)
    = Cert.Gcn.mm (N := 50000) (K := 128) (M := 128) (L1 m c) (Cert.Gcn.w1 (wcA m c)) := by
  refine (W10_arr m ρ c 3).trans ((final3 (V9 m ρ) c).trans ?_)
  show Cert.Gcn.mm (N := 50000) (K := 128) (M := 128) (W9 m ρ c (Proc.devRef .tc main_v52)) (W9 m ρ c (Proc.devRef .tc main_v54)) = _
  rw [h9, w9]

theorem live11 : Live (eA m c) (wcA m c) (bcA m c) (woA m c) (boA m c) (W11 m ρ c) :=
  live_host4 (W := W10 m ρ c) (live10 m ρ c)

theorem g11 : W11 m ρ c (Proc.devRef .tc main_v69)
    = Cert.Gcn.agg (Cert.Gcn.mm (N := 50000) (K := 128) (M := 128) (L1 m c) (Cert.Gcn.w1 (wcA m c))) (Cert.Gcn.srcOf (eA m c)) (Cert.Gcn.dstOf (eA m c)) (Cert.Gcn.normOf (eA m c)) := by
  refine (host4_agg (W10 m ρ c)).trans ?_
  rw [h10, (live10 m ρ c).src, (live10 m ρ c).dst, (live10 m ρ c).nrm]

theorem b11 : W11 m ρ c (Proc.devRef .tc main_v71) = Cert.Gcn.b1 (bcA m c) :=
  (host4_b (W10 m ρ c)).trans (congrArg Cert.Gcn.b1 (live10 m ρ c).k5)

theorem live12 : Live (eA m c) (wcA m c) (bcA m c) (woA m c) (boA m c) (W12 m ρ c) :=
  ⟨(W12_of_ne m ρ c main_v3 (by decide)).trans (live11 m ρ c).src,
   (W12_of_ne m ρ c main_v6 (by decide)).trans (live11 m ρ c).dst,
   (W12_of_ne m ρ c main_v31 (by decide)).trans (live11 m ρ c).nrm,
   (W12_of_ne m ρ c main_arg4 (by decide)).trans (live11 m ρ c).k4,
   (W12_of_ne m ρ c main_arg5 (by decide)).trans (live11 m ρ c).k5,
   (W12_of_ne m ρ c main_arg6 (by decide)).trans (live11 m ρ c).k6,
   (W12_of_ne m ρ c main_arg7 (by decide)).trans (live11 m ρ c).k7⟩

/-- Region 4 adds the bias row and rectifies: the layer's output. -/
theorem h12 : W12 m ρ c (Proc.devRef .tc main_v72) = L2 m c := by
  refine (W12_arr m ρ c 2).trans ((final4 (V11 m ρ) c).trans ?_)
  show Cert.Gcn.relu (N := 50000) (M := 128) (Cert.Gcn.addRow (N := 50000) (M := 128) (W11 m ρ c (Proc.devRef .tc main_v69)) (W11 m ρ c (Proc.devRef .tc main_v71))) = _
  rw [g11, b11]
  rfl

/-! ## Layer 2 -/

theorem live13 : Live (eA m c) (wcA m c) (bcA m c) (woA m c) (boA m c) (W13 m ρ c) :=
  live_host5 (W := W12 m ρ c) (live12 m ρ c)

theorem h13 : W13 m ρ c (Proc.devRef .tc main_v72) = L2 m c := (host5_h (W12 m ρ c)).trans (h12 m ρ c)

theorem w13 : W13 m ρ c (Proc.devRef .tc main_v74) = Cert.Gcn.w2 (wcA m c) :=
  (host5_w (W12 m ρ c)).trans (congrArg Cert.Gcn.w2 (live12 m ρ c).k4)

theorem live14 : Live (eA m c) (wcA m c) (bcA m c) (woA m c) (boA m c) (W14 m ρ c) :=
  ⟨(W14_of_ne m ρ c main_v3 (by decide)).trans (live13 m ρ c).src,
   (W14_of_ne m ρ c main_v6 (by decide)).trans (live13 m ρ c).dst,
   (W14_of_ne m ρ c main_v31 (by decide)).trans (live13 m ρ c).nrm,
   (W14_of_ne m ρ c main_arg4 (by decide)).trans (live13 m ρ c).k4,
   (W14_of_ne m ρ c main_arg5 (by decide)).trans (live13 m ρ c).k5,
   (W14_of_ne m ρ c main_arg6 (by decide)).trans (live13 m ρ c).k6,
   (W14_of_ne m ρ c main_arg7 (by decide)).trans (live13 m ρ c).k7⟩

/-- Region 5 leaves the features times the layer's weight matrix. -/
theorem h14 : W14 m ρ c (Proc.devRef .tc main_v76)
    = Cert.Gcn.mm (N := 50000) (K := 128) (M := 128) (L2 m c) (Cert.Gcn.w2 (wcA m c)) := by
  refine (W14_arr m ρ c 3).trans ((final5 (V13 m ρ) c).trans ?_)
  show Cert.Gcn.mm (N := 50000) (K := 128) (M := 128) (W13 m ρ c (Proc.devRef .tc main_v72)) (W13 m ρ c (Proc.devRef .tc main_v74)) = _
  rw [h13, w13]

theorem live15 : Live (eA m c) (wcA m c) (bcA m c) (woA m c) (boA m c) (W15 m ρ c) :=
  live_host6 (W := W14 m ρ c) (live14 m ρ c)

theorem g15 : W15 m ρ c (Proc.devRef .tc main_v89)
    = Cert.Gcn.agg (Cert.Gcn.mm (N := 50000) (K := 128) (M := 128) (L2 m c) (Cert.Gcn.w2 (wcA m c))) (Cert.Gcn.srcOf (eA m c)) (Cert.Gcn.dstOf (eA m c)) (Cert.Gcn.normOf (eA m c)) := by
  refine (host6_agg (W14 m ρ c)).trans ?_
  rw [h14, (live14 m ρ c).src, (live14 m ρ c).dst, (live14 m ρ c).nrm]

theorem b15 : W15 m ρ c (Proc.devRef .tc main_v91) = Cert.Gcn.b2 (bcA m c) :=
  (host6_b (W14 m ρ c)).trans (congrArg Cert.Gcn.b2 (live14 m ρ c).k5)

theorem live16 : Live (eA m c) (wcA m c) (bcA m c) (woA m c) (boA m c) (W16 m ρ c) :=
  ⟨(W16_of_ne m ρ c main_v3 (by decide)).trans (live15 m ρ c).src,
   (W16_of_ne m ρ c main_v6 (by decide)).trans (live15 m ρ c).dst,
   (W16_of_ne m ρ c main_v31 (by decide)).trans (live15 m ρ c).nrm,
   (W16_of_ne m ρ c main_arg4 (by decide)).trans (live15 m ρ c).k4,
   (W16_of_ne m ρ c main_arg5 (by decide)).trans (live15 m ρ c).k5,
   (W16_of_ne m ρ c main_arg6 (by decide)).trans (live15 m ρ c).k6,
   (W16_of_ne m ρ c main_arg7 (by decide)).trans (live15 m ρ c).k7⟩

/-- Region 6 adds the bias row and rectifies: the layer's output. -/
theorem h16 : W16 m ρ c (Proc.devRef .tc main_v92) = L3 m c := by
  refine (W16_arr m ρ c 2).trans ((final6 (V15 m ρ) c).trans ?_)
  show Cert.Gcn.relu (N := 50000) (M := 128) (Cert.Gcn.addRow (N := 50000) (M := 128) (W15 m ρ c (Proc.devRef .tc main_v89)) (W15 m ρ c (Proc.devRef .tc main_v91))) = _
  rw [g15, b15]
  rfl

/-! ## Region 7: the output projection -/

/-- The result array after the run is the network function of the argument arrays as launched. -/
theorem result_eq : W17 m ρ c (Proc.devRef .tc main_v93)
    = Cert.Gcn.net (xA m c) (eA m c) (wpA m c) (bpA m c) (wcA m c) (bcA m c) (woA m c) (boA m c) := by
  refine (W17_arr m ρ c 3).trans ((final7 (V16 m ρ) c).trans ?_)
  show Cert.Gcn.addRow (N := 50000) (M := 64) (Cert.Gcn.mm (N := 50000) (K := 128) (M := 64) (W16 m ρ c (Proc.devRef .tc main_v92)) (W16 m ρ c (Proc.devRef .tc main_arg6))) (W16 m ρ c (Proc.devRef .tc main_arg7)) = _
  rw [h16, (live16 m ρ c).k6, (live16 m ρ c).k7]
  rfl

end Cert.KernelIdeal.Hand

end
-- ==== Proof.RefSpec.lean ====
/-
  The reference's whole-array host operations as the functions of Spec.lean: its `dot_general` is `mm`, its
  broadcast bias added is `addRow`, its maximum with the zero splat is `relu`. So the reference's composed
  term (`netHost`: the operations as the program applies them) is the network function `net`.
-/
import proofs.«151434_j40080634806825_1_alg».proof.Proof.Stages
import Idealize.ShloMosaic.Lib.Pipeline.Value
import Idealize.ShloMosaic.Lib.ValueIdx
import Idealize.ShloMosaic.PureOps.Ideal.Laws

noncomputable section

open scoped BigOperators

namespace Cert.Gcn

open Cert.ReferenceIdeal Cert.ReferenceIdeal.Gen Idealize.ShloMosaic Idealize.ShloMosaic.ValueIdx

/-- The operands' indices at output entry `i` and contraction index `q`, coordinate by coordinate (weight [128,128]). -/
theorem rlhs128_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem rrhs128_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's `dot_general` of the tall array with a [128,128] weight is the product of Spec.lean: at every entry the
    sum over the shared axis (the contraction index re-indexed to its one coordinate). -/
theorem dot128_eq (X : Feat) (W : Wmat) :
    Host.dotGeneral (F := Ideal) dot_S50000x128_S128x128_S50000x128_1_0_0_1_n_n none X W = mm (N := 50000) (K := 128) (M := 128) X W := by
  funext i
  obtain ⟨r, s, rfl⟩ : ∃ (r : Fin 50000) (s : Fin 128), i = ix2 r s := ⟨i 0, i 1, eq_ix2 i⟩
  rw [mm_ix2]
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r s) ((contrEquiv1 dot_S50000x128_S128x128_S50000x128_1_0_0_1_n_n 128 rfl rfl).symm k) = ix2 r k := funext fun a => Fin.ext (by
    match a with
    | ⟨0, _⟩ => exact rlhs128_0 (ix2 r s) _
    | ⟨1, _⟩ => exact (dot_S50000x128_S128x128_S50000x128_1_0_0_1_n_n.lhsIdx_val_of_single rfl (ix2 r s) _).trans hk)
  have er : dot_S50000x128_S128x128_S50000x128_1_0_0_1_n_n.rhsIdx (ix2 r s) ((contrEquiv1 dot_S50000x128_S128x128_S50000x128_1_0_0_1_n_n 128 rfl rfl).symm k) = ix2 k s := funext fun a => Fin.ext (by
    match a with
    | ⟨0, _⟩ => exact (dot_S50000x128_S128x128_S50000x128_1_0_0_1_n_n.rhsIdx_val_of_single rfl (ix2 r s) _).trans hk
    | ⟨1, _⟩ => exact rrhs128_1 (ix2 r s) _)
  rw [el, er]

/-- The operands' indices at output entry `i` and contraction index `q`, coordinate by coordinate (weight [128,64]). -/
theorem rlhs64_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem rrhs64_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's `dot_general` of the tall array with a [128,64] weight is the product of Spec.lean: at every entry the
    sum over the shared axis (the contraction index re-indexed to its one coordinate). -/
theorem dot64_eq (X : Feat) (W : FVec Ideal S128x64 .f32) :
    Host.dotGeneral (F := Ideal) dot_S50000x128_S128x64_S50000x64_1_0_0_1_n_n none X W = mm (N := 50000) (K := 128) (M := 64) X W := by
  funext i
  obtain ⟨r, s, rfl⟩ : ∃ (r : Fin 50000) (s : Fin 64), i = ix2 r s := ⟨i 0, i 1, eq_ix2 i⟩
  rw [mm_ix2]
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r s) ((contrEquiv1 dot_S50000x128_S128x64_S50000x64_1_0_0_1_n_n 128 rfl rfl).symm k) = ix2 r k := funext fun a => Fin.ext (by
    match a with
    | ⟨0, _⟩ => exact rlhs64_0 (ix2 r s) _
    | ⟨1, _⟩ => exact (dot_S50000x128_S128x64_S50000x64_1_0_0_1_n_n.lhsIdx_val_of_single rfl (ix2 r s) _).trans hk)
  have er : dot_S50000x128_S128x64_S50000x64_1_0_0_1_n_n.rhsIdx (ix2 r s) ((contrEquiv1 dot_S50000x128_S128x64_S50000x64_1_0_0_1_n_n 128 rfl rfl).symm k) = ix2 k s := funext fun a => Fin.ext (by
    match a with
    | ⟨0, _⟩ => exact (dot_S50000x128_S128x64_S50000x64_1_0_0_1_n_n.rhsIdx_val_of_single rfl (ix2 r s) _).trans hk
    | ⟨1, _⟩ => exact rrhs64_1 (ix2 r s) _)
  rw [el, er]

/-- Adding the bias vector, viewed as one row and repeated down the S50000x128 array, is `addRow`. -/
theorem addBias128_eq (A : Feat) (b : Bvec) :
    addf A (broadcastInDim S50000x128 ![0, 1] bcast_S1x128_S50000x128_0_1 (broadcastInDim S1x128 ![1] bcast_S128_S1x128_1 b)) = addRow (N := 50000) (M := 128) A b := by
  funext i
  refine (addf_apply _ _ i).trans ?_
  show A i + _ = A i + b (ix1 (⟨(i 1).val, idx2_lt1 i⟩ : Fin 128))
  refine congrArg (A i + ·) ?_
  refine (broadcastInDim_apply _ bcast_S1x128_S50000x128_0_1 _ i (ix2 (0 : Fin 1) (⟨(i 1).val, idx2_lt1 i⟩ : Fin 128)) (fun a => ?_)).trans ?_
  · match a with
    | ⟨0, _⟩ => show 0 = if (1 : Nat) = 1 then 0 else (i 0).val; rw [if_pos rfl]
    | ⟨1, _⟩ => show (i 1).val = if (128 : Nat) = 1 then 0 else (i 1).val; rw [if_neg (by decide)]
  · exact broadcastInDim_apply _ bcast_S128_S1x128_1 b _ (ix1 (⟨(i 1).val, idx2_lt1 i⟩ : Fin 128)) (fun a => match a with
      | ⟨0, _⟩ => by show (i 1).val = if (128 : Nat) = 1 then 0 else (i 1).val; rw [if_neg (by decide)])

/-- Adding the bias vector, viewed as one row and repeated down the S50000x64 array, is `addRow`. -/
theorem addBias64_eq (A : FVec Ideal S50000x64 .f32) (b : FVec Ideal S64 .f32) :
    addf A (broadcastInDim S50000x64 ![0, 1] bcast_S1x64_S50000x64_0_1 (broadcastInDim S1x64 ![1] bcast_S64_S1x64_1 b)) = addRow (N := 50000) (M := 64) A b := by
  funext i
  refine (addf_apply _ _ i).trans ?_
  show A i + _ = A i + b (ix1 (⟨(i 1).val, idx2_lt1 i⟩ : Fin 64))
  refine congrArg (A i + ·) ?_
  refine (broadcastInDim_apply _ bcast_S1x64_S50000x64_0_1 _ i (ix2 (0 : Fin 1) (⟨(i 1).val, idx2_lt1 i⟩ : Fin 64)) (fun a => ?_)).trans ?_
  · match a with
    | ⟨0, _⟩ => show 0 = if (1 : Nat) = 1 then 0 else (i 0).val; rw [if_pos rfl]
    | ⟨1, _⟩ => show (i 1).val = if (64 : Nat) = 1 then 0 else (i 1).val; rw [if_neg (by decide)]
  · exact broadcastInDim_apply _ bcast_S64_S1x64_1 b _ (ix1 (⟨(i 1).val, idx2_lt1 i⟩ : Fin 64)) (fun a => match a with
      | ⟨0, _⟩ => by show (i 1).val = if (64 : Nat) = 1 then 0 else (i 1).val; rw [if_neg (by decide)])

/-- The maximum with the zero splat is the rectifier. -/
theorem relu_eq (A : Feat) :
    maximumf A (broadcastInDim S50000x128 ![] bcast_S_S50000x128 (constant (F := Ideal) S_ .f32 0x00000000#32)) = relu (N := 50000) (M := 128) A := by
  funext i
  refine (maximumf_apply _ _ i).trans ?_
  show max (A i) _ = max (A i) (Ideal.ofBits .f32 0x00000000#32)
  refine congrArg (max (A i)) ?_
  exact broadcastInDim_apply _ bcast_S_S50000x128 _ i ix0 (fun a => a.elim0)

/-- One layer as the reference applies it. -/
def layerHost (h : Feat) (W : Wmat) (b : Bvec) (e : Edges) : Feat :=
  maximumf (addf (agg (Host.dotGeneral (F := Ideal) dot_S50000x128_S128x128_S50000x128_1_0_0_1_n_n none h W) (srcOf e) (dstOf e) (normOf e)) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- The whole reference as it applies its operations. -/
def netHost (x : Feat) (e : Edges) (Wp : Wmat) (bp : Bvec) (Wc : Wstack) (bc : Bstack)
    (Wo : FVec Ideal S128x64 .f32) (bo : FVec Ideal S64 .f32) :
    FVec Ideal S50000x64 .f32 :=
  addf (Host.dotGeneral (F := Ideal) dot_S50000x128_S128x64_S50000x64_1_0_0_1_n_n none (layerHost (layerHost (layerHost (addf (Host.dotGeneral (F := Ideal) dot_S50000x128_S128x128_S50000x128_1_0_0_1_n_n none x Wp) (broadcastInDim S50000x128 ![0, 1] bcast_S1x128_S50000x128_0_1 (broadcastInDim S1x128 ![1] bcast_S128_S1x128_1 bp))) (w0 Wc) (b0 bc) e) (w1 Wc) (b1 bc) e) (w2 Wc) (b2 bc) e) Wo) (broadcastInDim S50000x64 ![0, 1] bcast_S1x64_S50000x64_0_1 (broadcastInDim S1x64 ![1] bcast_S64_S1x64_1 bo))

theorem layerHost_eq (h : Feat) (W : Wmat) (b : Bvec) (e : Edges) : layerHost h W b e = layer h W b e := by
  unfold layerHost layer
  rw [dot128_eq, addBias128_eq, relu_eq]

theorem netHost_eq (x : Feat) (e : Edges) (Wp : Wmat) (bp : Bvec) (Wc : Wstack) (bc : Bstack)
    (Wo : FVec Ideal S128x64 .f32) (bo : FVec Ideal S64 .f32) :
    netHost x e Wp bp Wc bc Wo bo = net x e Wp bp Wc bc Wo bo := by
  unfold netHost net
  rw [layerHost_eq, layerHost_eq, layerHost_eq, dot128_eq, addBias128_eq, dot64_eq, addBias64_eq]

end Cert.Gcn

end
-- ==== Proof.RefNet.lean ====
/-
  The reference's run read as the network function: the composed term its run ends at is, operation for
  operation, `netHost` of the argument arrays (the same host operations, named), which is `net`.
-/
import proofs.«151434_j40080634806825_1_alg».proof.Proof.RefRun
import proofs.«151434_j40080634806825_1_alg».proof.Proof.RefSpec

set_option maxRecDepth 16384

noncomputable section

namespace Cert.ReferenceIdeal.Hand

open Cert.ReferenceIdeal Cert.ReferenceIdeal.Gen Idealize.ShloMosaic Idealize.ShloMosaic.TcCoe Idealize.SL.Sem

set_option maxHeartbeats 4000000 in
/-- The reference's result term is the network function of the arguments as launched. -/
theorem res_eq (m : (ℓ : Loc nD τ sig) → Buf (Elt Ideal) ℓ) (c : Dev nD) :
    Cert.ReferenceIdeal.ValueP.res_main_v105 (F := Ideal) m c
      = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [← Cert.Gcn.netHost_eq]
  unfold Cert.ReferenceIdeal.ValueP.res_main_v105
  rfl

end Cert.ReferenceIdeal.Hand

end
-- ==== Proof.lean ====
/-
  The claim for the three-layer graph-convolution network: the tiled kernel program and the whole-array reference
  compute the same array on the extended reals.

  Both programs derive, from the edge list, each message's source and target node and its weight (the product of
  the inverse square roots of the degrees at its two ends) by the same host operations. The kernel then runs eight
  tiled regions — an input projection with bias, three times (multiply by the layer's weight matrix; add the
  layer's bias and rectify), and an output projection with bias — with the message passing (gather at the
  sources, scale, scatter-add into the targets) as host operations between them; the reference applies whole-array
  `dot_general`, `add` and `maximum` in their place. A region writes its output in ten blocks of 5000 rows, each
  the same function of the same rows of its input, so it leaves the whole-array function (`mm`, `addRow`, `relu`
  of Spec.lean); the roundings to bf16 on the way into the matrix unit are the identity on extended reals, and a
  product of matrices is the same sum on both sides. The gathers and scatter-adds are applied by both programs to
  arrays shown equal, and are never opened. No law of arithmetic beyond that is needed: the precondition that the
  inputs are finite is not used.

  The frames of the two kernel programs are the generated ones; the reference's is its run with the result dropped.
  The ideal pass rewrote nothing, so `preserves` is trivial.
-/
import proofs.«151434_j40080634806825_1_alg».proof.Defs
import proofs.«151434_j40080634806825_1_alg».proof.Proof.Gen.Kernel
import proofs.«151434_j40080634806825_1_alg».proof.Proof.Gen.Kernel.Frame
import proofs.«151434_j40080634806825_1_alg».proof.Proof.Gen.KernelIdeal
import proofs.«151434_j40080634806825_1_alg».proof.Proof.Gen.KernelIdeal.Frame
import proofs.«151434_j40080634806825_1_alg».proof.Proof.Gen.ReferenceIdeal
import proofs.«151434_j40080634806825_1_alg».proof.Proof.Gen.Pre_finite_inputs
import proofs.«151434_j40080634806825_1_alg».proof.Proof.KRun
import proofs.«151434_j40080634806825_1_alg».proof.Proof.Chain
import proofs.«151434_j40080634806825_1_alg».proof.Proof.RefRun
import proofs.«151434_j40080634806825_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network function of the (agreeing) argument arrays in their result buffers. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.Hand.res_eq m' c, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
